-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S3x64 .f32) (main_arg6 : FVec F S3x64x64 .f32) (main_arg7 : FVec F S64x1 .f32) (main_arg8 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S100000x512 .f32) (main_arg1 : IVec S2x1600000 32) (main_arg2 : FVec F S512x64 .f32) (main_arg3 : FVec F S64 .f32) (main_arg4 : FVec F S3x64x64 .f32) (main_arg5 : FVec F S3x64 .f32) (main_arg6 : FVec F S3x64x64 .f32) (main_arg7 : FVec F S64x1 .f32) (main_arg8 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_arg8 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S5000x512 : Shape := ⟨2, ![5000, 512]⟩
abbrev S5000x64 : Shape := ⟨2, ![5000, 64]⟩
abbrev S1600000x64 : Shape := ⟨2, ![1600000, 64]⟩
abbrev S1x64x64 : Shape := ⟨3, ![1, 64, 64]⟩
abbrev S64x64 : Shape := ⟨2, ![64, 64]⟩
abbrev S1x1 : Shape := ⟨2, ![1, 1]⟩
abbrev S5000x1 : Shape := ⟨2, ![5000, 1]⟩

abbrev nBuf : Space → Nat
  | .hbm => 107
  | .vmem => 39
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S3x64x64, .f32⟩
  | .hbm, ⟨5, _⟩ => ⟨S3x64, .f32⟩
  | .hbm, ⟨6, _⟩ => ⟨S3x64x64, .f32⟩
  | .hbm, ⟨7, _⟩ => ⟨S64x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S1x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S1x64x64, .f32⟩
  | .hbm, ⟨51, _⟩ => ⟨S64x64, .f32⟩
  | .hbm, ⟨52, _⟩ => ⟨S1x64x64, .f32⟩
  | .hbm, ⟨53, _⟩ => ⟨S64x64, .f32⟩
  | .hbm, ⟨54, _⟩ => ⟨S1x64, .f32⟩
  | .hbm, ⟨55, _⟩ => ⟨S64, .f32⟩
  | .hbm, ⟨56, _⟩ => ⟨S1x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64x64, .f32⟩
  | .hbm, ⟨74, _⟩ => ⟨S64x64, .f32⟩
  | .hbm, ⟨75, _⟩ => ⟨S1x64x64, .f32⟩
  | .hbm, ⟨76, _⟩ => ⟨S64x64, .f32⟩
  | .hbm, ⟨77, _⟩ => ⟨S1x64, .f32⟩
  | .hbm, ⟨78, _⟩ => ⟨S64, .f32⟩
  | .hbm, ⟨79, _⟩ => ⟨S1x64, .f32⟩
  | .hbm, ⟨80, _⟩ => ⟨S100000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S1x64x64, .f32⟩
  | .hbm, ⟨97, _⟩ => ⟨S64x64, .f32⟩
  | .hbm, ⟨98, _⟩ => ⟨S1x64x64, .f32⟩
  | .hbm, ⟨99, _⟩ => ⟨S64x64, .f32⟩
  | .hbm, ⟨100, _⟩ => ⟨S1x64, .f32⟩
  | .hbm, ⟨101, _⟩ => ⟨S64, .f32⟩
  | .hbm, ⟨102, _⟩ => ⟨S1x64, .f32⟩
  | .hbm, ⟨103, _⟩ => ⟨S100000x64, .f32⟩
  | .hbm, ⟨104, _⟩ => ⟨S1x1, .f32⟩
  | .hbm, ⟨105, _⟩ => ⟨S100000x1, .f32⟩
  | .hbm, ⟨106, _⟩ => ⟨S100000, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64x1, .f32⟩
  | .local _ .vmem, ⟨36, _⟩ => ⟨S1x1, .f32⟩
  | .local _ .vmem, ⟨37, _⟩ => ⟨S5000x1, .f32⟩
  | .local _ .vmem, ⟨38, _⟩ => ⟨S5000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S64_S1x64 : S64.ShapeCasts S1x64
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1600000x1_S1600000_n_0_0_1_wf : ScatterDims.WF S100000 S1600000x1 S1600000 [] [0] [0] 1
  dot_S5000x512_S512x64_S5000x64_1_0_0_1_n_n_wf : DotDims.WF S5000x512 S512x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v77) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S64x64 : Shape := ⟨2, ![64, 64]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S3x64x64, .f32⟩
  | 5 => ⟨S3x64, .f32⟩
  | 6 => ⟨S3x64x64, .f32⟩
  | 7 => ⟨S64x1, .f32⟩
  | 8 => ⟨S1, .f32⟩
  | 9 => ⟨S100000x64, .f32⟩
  | 10 => ⟨S1x64, .f32⟩
  | 11 => ⟨S100000x64, .f32⟩
  | 12 => ⟨S100000x64, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S100000x1, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S100000x64, .f32⟩
  | 51 => ⟨S100000x64, .f32⟩
  | 52 => ⟨S1x64x64, .f32⟩
  | 53 => ⟨S64x64, .f32⟩
  | 54 => ⟨S100000x64, .f32⟩
  | 55 => ⟨S1x64, .f32⟩
  | 56 => ⟨S64, .f32⟩
  | 57 => ⟨S1x64, .f32⟩
  | 58 => ⟨S100000x64, .f32⟩
  | 59 => ⟨S100000x64, .f32⟩
  | 60 => ⟨S1x64x64, .f32⟩
  | 61 => ⟨S64x64, .f32⟩
  | 62 => ⟨S100000x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S_, .f32⟩
  | 78 => ⟨S100000x64, .f32⟩
  | 79 => ⟨S1600000x1, .i32⟩
  | 80 => ⟨S100000x64, .f32⟩
  | 81 => ⟨S100000x64, .f32⟩
  | 82 => ⟨S100000x64, .f32⟩
  | 83 => ⟨S1x64x64, .f32⟩
  | 84 => ⟨S64x64, .f32⟩
  | 85 => ⟨S100000x64, .f32⟩
  | 86 => ⟨S1x64, .f32⟩
  | 87 => ⟨S64, .f32⟩
  | 88 => ⟨S1x64, .f32⟩
  | 89 => ⟨S100000x64, .f32⟩
  | 90 => ⟨S100000x64, .f32⟩
  | 91 => ⟨S1x64x64, .f32⟩
  | 92 => ⟨S64x64, .f32⟩
  | 93 => ⟨S100000x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000x64, .f32⟩
  | 113 => ⟨S100000x64, .f32⟩
  | 114 => ⟨S1x64x64, .f32⟩
  | 115 => ⟨S64x64, .f32⟩
  | 116 => ⟨S100000x64, .f32⟩
  | 117 => ⟨S1x64, .f32⟩
  | 118 => ⟨S64, .f32⟩
  | 119 => ⟨S1x64, .f32⟩
  | 120 => ⟨S100000x64, .f32⟩
  | 121 => ⟨S100000x64, .f32⟩
  | 122 => ⟨S1x64x64, .f32⟩
  | 123 => ⟨S64x64, .f32⟩
  | 124 => ⟨S100000x64, .f32⟩
  | 125 => ⟨S100000x64, .f32⟩
  | 126 => ⟨S100000x64, .f32⟩
  | 127 => ⟨S_, .f32⟩
  | _ => ⟨S100000x512, .f32⟩

abbrev hbmTy0_1 (i : Nat) : BufTy := match i % 128 with
  | 0 => ⟨S100000x64, .f32⟩
  | 1 => ⟨S100000x64, .f32⟩
  | 2 => ⟨S100000x1, .f32⟩
  | 3 => ⟨S1x1, .f32⟩
  | 4 => ⟨S100000x1, .f32⟩
  | 5 => ⟨S100000x1, .f32⟩
  | 6 => ⟨S100000x1, .f32⟩
  | 7 => ⟨S100000x1, .f32⟩
  | 8 => ⟨S_, .f32⟩
  | 9 => ⟨S100000x1, .f32⟩
  | 10 => ⟨S100000x1, .f32⟩
  | 11 => ⟨S_, .f32⟩
  | 12 => ⟨S100000x1, .f32⟩
  | 13 => ⟨S100000x1, .f32⟩
  | 14 => ⟨S100000, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call1_cst : Ref sig .tc := ⟨.hbm, 65, rfl⟩
abbrev main_call1_v0 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call2_cst : Ref sig .tc := ⟨.hbm, 96, rfl⟩
abbrev main_call2_v0 : Ref sig .tc := ⟨.hbm, 97, rfl⟩
abbrev main_v71 : Ref sig .tc := ⟨.hbm, 98, rfl⟩
abbrev main_c_10 : Ref sig .tc := ⟨.hbm, 99, rfl⟩
abbrev main_v72 : Ref sig .tc := ⟨.hbm, 100, rfl⟩
abbrev main_v73 : Ref sig .tc := ⟨.hbm, 101, rfl⟩
abbrev main_c_11 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_12 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_call3_cst : Ref sig .tc := ⟨.hbm, 127, rfl⟩
abbrev main_call3_v0 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_13 : Ref sig .tc := ⟨.hbm, 136, rfl⟩
abbrev main_v104 : Ref sig .tc := ⟨.hbm, 137, rfl⟩
abbrev main_v105 : Ref sig .tc := ⟨.hbm, 138, rfl⟩
abbrev main_cst_14 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  dot_S100000x512_S512x64_S100000x64_1_0_0_1_n_n_wf : DotDims.WF S100000x512 S512x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run with its result named: every weakly fair execution of the program on the TensorCores
  terminates without a fault, and in every final state the result buffer holds the last boundary's contents at that
  buffer, the argument arrays being as launched.
-/
import proofs.«122353_j15796889715042_1_alg».proof.Proof.Gen.KernelIdeal.Frame
import Idealize.ShloMosaic.PureOps.Ideal

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program's run: it terminates, nothing faults, the result buffer ends at the contents the last stretch of host
    operations leaves there, and every argument array ends as launched. -/
theorem run_valued : θ_run defs (onTc (τ := τ) (main (F := Ideal))) ⟨m, fun _ => 0, ρ⟩ (fun r => ∀ c : Dev nD,
      r.2.mem ((c.tc : Thread nD τ).loc main_v80) = W13 (F := Ideal) m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v80 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.KValue

end
-- ==== Proof.Spec.lean ====
/-
  The network, entry by entry, on the extended reals.

  Three dense stages, each a function of whole arrays read at an entry:
  * the encoder: row p of x times column q of W, plus the bias entry q;
  * one layer: with a the aggregated neighbour rows and h the current rows,
      max(h(p,q) + ((sum_k a(p,k) Wl(k,q) + bl(q)) + sum_k h(p,k) Wr(k,q)), 0);
  * the classifier: the logistic function of row p of h times the single column of W, plus the bias.
  A stage is stated twice: with its bias as a 1 x n row (the form one block of rows is computed in) and with its bias
  as a length-n vector (the form the whole program is stated in); the two agree when the row is the vector reshaped.
  The whole network applies the encoder, then three layers whose aggregation is a given function A of the current rows,
  then the classifier.
-/
import Idealize.ShloMosaic.PureOps.Ideal
import Idealize.ShloMosaic.Lib.ValueIdx

noncomputable section

namespace Cert.Sage

open Idealize.ShloMosaic Idealize.ShloMosaic.ValueIdx

/-- The node features after a stage: 100000 rows of 64. -/
abbrev H := FVec Ideal ⟨2, ![100000, 64]⟩ .f32

/-- The encoder at entry (p, q), the bias given entry by entry. -/
def encAt (x : FVec Ideal ⟨2, ![100000, 512]⟩ .f32) (W : FVec Ideal ⟨2, ![512, 64]⟩ .f32) (b : Fin 64 → EReal)
    (p : Fin 100000) (q : Fin 64) : EReal :=
  (∑ k : Fin 512, x (ix2 p k) * W (ix2 k q)) + b q

/-- One layer at entry (p, q), the bias given entry by entry. -/
def layerAt (a h : H) (Wl Wr : FVec Ideal ⟨2, ![64, 64]⟩ .f32) (b : Fin 64 → EReal) (p : Fin 100000) (q : Fin 64) : EReal :=
  max (h (ix2 p q) + (((∑ k : Fin 64, a (ix2 p k) * Wl (ix2 k q)) + b q) + ∑ k : Fin 64, h (ix2 p k) * Wr (ix2 k q)))
    (Ideal.ofBits .f32 0x00000000#32)

/-- The classifier at row p, the bias a number. -/
def clsAt (h : H) (W : FVec Ideal ⟨2, ![64, 1]⟩ .f32) (b : EReal) (p : Fin 100000) : EReal :=
  Ideal.logistic ((∑ k : Fin 64, h (ix2 p k) * W (ix2 k (0 : Fin 1))) + b)

/-! ## The stages with the bias as a row -/

def encR (x : FVec Ideal ⟨2, ![100000, 512]⟩ .f32) (W : FVec Ideal ⟨2, ![512, 64]⟩ .f32)
    (b : FVec Ideal ⟨2, ![1, 64]⟩ .f32) : H :=
  fun i => encAt x W (fun q => b (ix2 (0 : Fin 1) q)) (i 0) (i 1)

def layerR (a h : H) (Wl Wr : FVec Ideal ⟨2, ![64, 64]⟩ .f32) (b : FVec Ideal ⟨2, ![1, 64]⟩ .f32) : H :=
  fun i => layerAt a h Wl Wr (fun q => b (ix2 (0 : Fin 1) q)) (i 0) (i 1)

def clsR (h : H) (W : FVec Ideal ⟨2, ![64, 1]⟩ .f32) (b : FVec Ideal ⟨2, ![1, 1]⟩ .f32) :
    FVec Ideal ⟨2, ![100000, 1]⟩ .f32 :=
  fun i => clsAt h W (b (ix2 (0 : Fin 1) (0 : Fin 1))) (i 0)

theorem encR_apply (x : FVec Ideal ⟨2, ![100000, 512]⟩ .f32) (W : FVec Ideal ⟨2, ![512, 64]⟩ .f32)
    (b : FVec Ideal ⟨2, ![1, 64]⟩ .f32) (p : Fin 100000) (q : Fin 64) :
    encR x W b (ix2 p q) = encAt x W (fun q => b (ix2 (0 : Fin 1) q)) p q := rfl

theorem layerR_apply (a h : H) (Wl Wr : FVec Ideal ⟨2, ![64, 64]⟩ .f32) (b : FVec Ideal ⟨2, ![1, 64]⟩ .f32)
    (p : Fin 100000) (q : Fin 64) :
    layerR a h Wl Wr b (ix2 p q) = layerAt a h Wl Wr (fun q => b (ix2 (0 : Fin 1) q)) p q := rfl

theorem clsR_apply (h : H) (W : FVec Ideal ⟨2, ![64, 1]⟩ .f32) (b : FVec Ideal ⟨2, ![1, 1]⟩ .f32)
    (p : Fin 100000) (u : Fin 1) :
    clsR h W b (ix2 p u) = clsAt h W (b (ix2 (0 : Fin 1) (0 : Fin 1))) p := rfl

/-! ## The stages with the bias as a vector -/

def enc (x : FVec Ideal ⟨2, ![100000, 512]⟩ .f32) (W : FVec Ideal ⟨2, ![512, 64]⟩ .f32)
    (b : FVec Ideal ⟨1, ![64]⟩ .f32) : H :=
  fun i => encAt x W (fun q => b (ix1 q)) (i 0) (i 1)

def layer (a h : H) (Wl Wr : FVec Ideal ⟨2, ![64, 64]⟩ .f32) (b : FVec Ideal ⟨1, ![64]⟩ .f32) : H :=
  fun i => layerAt a h Wl Wr (fun q => b (ix1 q)) (i 0) (i 1)

def cls (h : H) (W : FVec Ideal ⟨2, ![64, 1]⟩ .f32) (b : FVec Ideal ⟨1, ![1]⟩ .f32) :
    FVec Ideal ⟨2, ![100000, 1]⟩ .f32 :=
  fun i => clsAt h W (b (ix1 (0 : Fin 1))) (i 0)

theorem enc_apply (x : FVec Ideal ⟨2, ![100000, 512]⟩ .f32) (W : FVec Ideal ⟨2, ![512, 64]⟩ .f32)
    (b : FVec Ideal ⟨1, ![64]⟩ .f32) (p : Fin 100000) (q : Fin 64) :
    enc x W b (ix2 p q) = encAt x W (fun q => b (ix1 q)) p q := rfl

theorem layer_apply (a h : H) (Wl Wr : FVec Ideal ⟨2, ![64, 64]⟩ .f32) (b : FVec Ideal ⟨1, ![64]⟩ .f32)
    (p : Fin 100000) (q : Fin 64) :
    layer a h Wl Wr b (ix2 p q) = layerAt a h Wl Wr (fun q => b (ix1 q)) p q := rfl

theorem cls_apply (h : H) (W : FVec Ideal ⟨2, ![64, 1]⟩ .f32) (b : FVec Ideal ⟨1, ![1]⟩ .f32)
    (p : Fin 100000) (u : Fin 1) :
    cls h W b (ix2 p u) = clsAt h W (b (ix1 (0 : Fin 1))) p := rfl

/-- A stage with a row bias is the stage with the vector bias when the row's entries are the vector's. -/
theorem encR_eq_enc (x : FVec Ideal ⟨2, ![100000, 512]⟩ .f32) (W : FVec Ideal ⟨2, ![512, 64]⟩ .f32)
    (b2 : FVec Ideal ⟨2, ![1, 64]⟩ .f32) (b : FVec Ideal ⟨1, ![64]⟩ .f32)
    (hb : ∀ q : Fin 64, b2 (ix2 (0 : Fin 1) q) = b (ix1 q)) : encR x W b2 = enc x W b := by
  funext i; unfold encR enc; exact congrArg (fun f => encAt x W f (i 0) (i 1)) (funext hb)

theorem layerR_eq_layer (a h : H) (Wl Wr : FVec Ideal ⟨2, ![64, 64]⟩ .f32)
    (b2 : FVec Ideal ⟨2, ![1, 64]⟩ .f32) (b : FVec Ideal ⟨1, ![64]⟩ .f32)
    (hb : ∀ q : Fin 64, b2 (ix2 (0 : Fin 1) q) = b (ix1 q)) : layerR a h Wl Wr b2 = layer a h Wl Wr b := by
  funext i; unfold layerR layer; exact congrArg (fun f => layerAt a h Wl Wr f (i 0) (i 1)) (funext hb)

theorem clsR_eq_cls (h : H) (W : FVec Ideal ⟨2, ![64, 1]⟩ .f32)
    (b2 : FVec Ideal ⟨2, ![1, 1]⟩ .f32) (b : FVec Ideal ⟨1, ![1]⟩ .f32)
    (hb : b2 (ix2 (0 : Fin 1) (0 : Fin 1)) = b (ix1 (0 : Fin 1))) : clsR h W b2 = cls h W b := by
  funext i; unfold clsR cls; exact congrArg (fun f => clsAt h W f (i 0)) hb

/-! ## The whole network -/

/-- The network: encoder, three layers with the aggregation `A` of the current rows, classifier. -/
def net (A : H → H) (x : FVec Ideal ⟨2, ![100000, 512]⟩ .f32) (Wenc : FVec Ideal ⟨2, ![512, 64]⟩ .f32)
    (benc : FVec Ideal ⟨1, ![64]⟩ .f32)
    (Wl0 Wr0 : FVec Ideal ⟨2, ![64, 64]⟩ .f32) (bl0 : FVec Ideal ⟨1, ![64]⟩ .f32)
    (Wl1 Wr1 : FVec Ideal ⟨2, ![64, 64]⟩ .f32) (bl1 : FVec Ideal ⟨1, ![64]⟩ .f32)
    (Wl2 Wr2 : FVec Ideal ⟨2, ![64, 64]⟩ .f32) (bl2 : FVec Ideal ⟨1, ![64]⟩ .f32)
    (Wcls : FVec Ideal ⟨2, ![64, 1]⟩ .f32) (bcls : FVec Ideal ⟨1, ![1]⟩ .f32) : FVec Ideal ⟨2, ![100000, 1]⟩ .f32 :=
  let h0 := enc x Wenc benc
  let h1 := layer (A h0) h0 Wl0 Wr0 bl0
  let h2 := layer (A h1) h1 Wl1 Wr1 bl1
  let h3 := layer (A h2) h2 Wl2 Wr2 bl2
  cls h3 Wcls bcls

end Cert.Sage

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«122353_j15796889715042_1_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.Blocks.lean ====
/-
  One block of rows of each dense stage, read at an entry.

  A region's body computes, from the blocks it loads, one block of 5000 rows of its stage.  At the exact values a
  rounding to the narrower float format is the identity and a matrix-unit product into a zero accumulator is the plain
  contraction, so entry (p, q) of the stored block is:
  * encoder: sum_k x(p,k) W(k,q) + b(0,q);
  * layer: max(h(p,q) + ((sum_k a(p,k) Wl(k,q) + bl(0,q)) + sum_k h(p,k) Wr(k,q)), 0);
  * classifier: logistic(sum_k h(p,k) W(k,0) + b(0,0)).
-/
import proofs.«122353_j15796889715042_1_alg».proof.Proof.Gen.KernelIdeal.Skeleton
import proofs.«122353_j15796889715042_1_alg».proof.Proof.Spec
import proofs.«122353_j15796889715042_1_alg».proof.Proof.LibMatmul
import proofs.«122353_j15796889715042_1_alg».proof.Proof.LibRank2

noncomputable section

namespace Cert.KernelIdeal.Blocks

open Idealize.ShloMosaic Idealize.ShloMosaic.ValueIdx Cert.KernelIdeal Cert.KernelIdeal.Gen

/-- The encoder's stored block at (p, q). -/
theorem enc_payload (x : Vec Ideal S5000x512 .f32) (w : Vec Ideal S512x64 .f32) (b : Vec Ideal S1x64 .f32)
    (p : Fin 5000) (q : Fin 64) :
    k0_pay1 (F := Ideal) x w b (ix2 p q)
      = (∑ k : Fin 512, x (ix2 p k) * w (ix2 k q)) + b (ix2 (0 : Fin 1) q) := by
  have hm := Cert.MatmulAt.matmul_zero_plain_apply (M := 5000) (K := 512) (N := 64)
    dot_S5000x512_S512x64_S5000x64_1_0_0_1_n_n_wf none
    (truncf (F := Ideal) .bf16 x bitsLt_bf16_f32) (truncf (F := Ideal) .bf16 w bitsLt_bf16_f32) p q
  have hb := Cert.Rank2.rowBias_vec_apply (M := 5000) (n := 64) b shapeCasts_S1x64_S1x64 broadcasts_S1x64_S5000x64 p q
  exact congrArg₂ (fun (u v : EReal) => u + v) hm hb

/-- A row of 64 repeated down 5000 rows reads, at (p, q), the row's entry q. -/
theorem rowRepeat64 (b : Vec Ideal S1x64 .f32) (p : Fin 5000) (q : Fin 64) :
    broadcastTo S5000x64 b broadcasts_S1x64_S5000x64 (ix2 p q) = b (ix2 (0 : Fin 1) q) := by
  have h := Cert.Rank2.rowBias_vec_apply (M := 5000) (n := 64) b shapeCasts_S1x64_S1x64 broadcasts_S1x64_S5000x64 p q
  rwa [shapeCast_self] at h

/-- A single entry repeated down 5000 rows reads, at (p, 0), that entry. -/
theorem rowRepeat1 (b : Vec Ideal S1x1 .f32) (p : Fin 5000) (u : Fin 1) :
    broadcastTo S5000x1 b broadcasts_S1x1_S5000x1 (ix2 p u) = b (ix2 (0 : Fin 1) u) := by
  have h := Cert.Rank2.rowBias_vec_apply (M := 5000) (n := 1) b shapeCasts_S1x1_S1x1 broadcasts_S1x1_S5000x1 p u
  rwa [shapeCast_self] at h

/-- A layer's stored block at (p, q); the second copy of the current rows (read again for the residual) is `h'`. -/
theorem layer_payload (a h : Vec Ideal S5000x64 .f32) (wl wr : Vec Ideal S64x64 .f32) (b : Vec Ideal S1x64 .f32)
    (h' : Vec Ideal S5000x64 .f32) (p : Fin 5000) (q : Fin 64) :
    k1_pay1 (F := Ideal) a h wl wr b h' (ix2 p q)
      = max (h' (ix2 p q) + (((∑ k : Fin 64, a (ix2 p k) * wl (ix2 k q)) + b (ix2 (0 : Fin 1) q))
            + ∑ k : Fin 64, h (ix2 p k) * wr (ix2 k q))) (Ideal.ofBits .f32 0x00000000#32) := by
  have hm1 := Cert.MatmulAt.matmul_zero_plain_apply (M := 5000) (K := 64) (N := 64)
    dot_S5000x64_S64x64_S5000x64_1_0_0_1_n_n_wf none
    (truncf (F := Ideal) .bf16 a bitsLt_bf16_f32) (truncf (F := Ideal) .bf16 wl bitsLt_bf16_f32) p q
  have hm2 := Cert.MatmulAt.matmul_zero_plain_apply (M := 5000) (K := 64) (N := 64)
    dot_S5000x64_S64x64_S5000x64_1_0_0_1_n_n_wf none
    (truncf (F := Ideal) .bf16 h bitsLt_bf16_f32) (truncf (F := Ideal) .bf16 wr bitsLt_bf16_f32) p q
  have hb := rowRepeat64 b p q
  unfold k1_pay1
  simp only [shapeCast_self]
  exact congrArg₂ (fun (u v : EReal) => max u v)
    (congrArg₂ (fun (u v : EReal) => u + v) rfl
      (congrArg₂ (fun (u v : EReal) => u + v) (congrArg₂ (fun (u v : EReal) => u + v) hm1 hb) hm2)) rfl

/-- The second and third layers' bodies are the first's. -/
theorem layer_payload2 (a h : Vec Ideal S5000x64 .f32) (wl wr : Vec Ideal S64x64 .f32) (b : Vec Ideal S1x64 .f32)
    (h' : Vec Ideal S5000x64 .f32) (p : Fin 5000) (q : Fin 64) :
    k2_pay1 (F := Ideal) a h wl wr b h' (ix2 p q)
      = max (h' (ix2 p q) + (((∑ k : Fin 64, a (ix2 p k) * wl (ix2 k q)) + b (ix2 (0 : Fin 1) q))
            + ∑ k : Fin 64, h (ix2 p k) * wr (ix2 k q))) (Ideal.ofBits .f32 0x00000000#32) :=
  layer_payload a h wl wr b h' p q

theorem layer_payload3 (a h : Vec Ideal S5000x64 .f32) (wl wr : Vec Ideal S64x64 .f32) (b : Vec Ideal S1x64 .f32)
    (h' : Vec Ideal S5000x64 .f32) (p : Fin 5000) (q : Fin 64) :
    k3_pay1 (F := Ideal) a h wl wr b h' (ix2 p q)
      = max (h' (ix2 p q) + (((∑ k : Fin 64, a (ix2 p k) * wl (ix2 k q)) + b (ix2 (0 : Fin 1) q))
            + ∑ k : Fin 64, h (ix2 p k) * wr (ix2 k q))) (Ideal.ofBits .f32 0x00000000#32) :=
  layer_payload a h wl wr b h' p q

/-- The classifier's stored block at (p, 0). -/
theorem cls_payload (h : Vec Ideal S5000x64 .f32) (w : Vec Ideal S64x1 .f32) (b : Vec Ideal S1x1 .f32)
    (p : Fin 5000) (u : Fin 1) :
    k4_pay1 (F := Ideal) h w b (ix2 p u)
      = Ideal.logistic ((∑ k : Fin 64, h (ix2 p k) * w (ix2 k u)) + b (ix2 (0 : Fin 1) u)) := by
  have hm := Cert.MatmulAt.matmul_zero_plain_apply (M := 5000) (K := 64) (N := 1)
    dot_S5000x64_S64x1_S5000x1_1_0_0_1_n_n_wf none
    (truncf (F := Ideal) .bf16 h bitsLt_bf16_f32) (truncf (F := Ideal) .bf16 w bitsLt_bf16_f32) p u
  have hb := rowRepeat1 b p u
  unfold k4_pay1
  simp only [shapeCast_self]
  exact congrArg Ideal.logistic (congrArg₂ (fun (u v : EReal) => u + v) hm hb)

end Cert.KernelIdeal.Blocks

end
-- ==== Proof.EncArray.lean ====
/-
  The encoder's output array after its twenty blocks of 5000 rows have been written back.

  Grid point t computes rows 5000 t … 5000 t + 4999 of the output from the same rows of x, the whole of W and the
  bias row; the blocks are disjoint and together are all 100000 rows, so the array ends as the encoder of the arrays
  the region found, entry by entry.
-/
import proofs.«122353_j15796889715042_1_alg».proof.Proof.Gen.KernelIdeal.Frame
import proofs.«122353_j15796889715042_1_alg».proof.Proof.Spec
import proofs.«122353_j15796889715042_1_alg».proof.Proof.Blocks
import Idealize.ShloMosaic.Lib.Pipeline.Value

noncomputable section

namespace Cert.KernelIdeal.Arrays

open Idealize.ShloMosaic Idealize.ShloMosaic.TcCoe Idealize.ShloMosaic.ValueIdx Idealize.SL.Sem Cert.KernelIdeal Cert.KernelIdeal.Gen

theorem enc_hz : (![0, 0] : Fin 2 → Nat) = fun _ => 0 := funext fun a => by fin_cases a <;> rfl

/-- The index maps over the grid: the row blocks move with the point, everything else stays at block 0. -/
theorem enc_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem enc_lt (t : Fin cfg0.N) : t.val < 20 := lt_of_lt_of_eq t.isLt N_0

/-- Row p of point t's block is row 5000 t + p of the array. -/
def encRow (t : Fin cfg0.N) (p : Fin 5000) : Fin 100000 := ⟨t.val * 5000 + p.val, by have := enc_lt t; have := p.isLt; omega⟩

theorem enc_emb0 (t : Fin cfg0.N) (p : Fin 5000) (k : Fin 512) :
    ((cfg0.win 0).blk t).view.emb (ix2 p k) = ix2 (encRow t p) k := by
  obtain ⟨e0, e1, -⟩ := enc_idx t
  funext a; apply Fin.ext
  match a with
  | ⟨0, _⟩ => show win0_0.index t (0 : Fin 2) * 5000 + 1 * p.val = t.val * 5000 + p.val; omega
  | ⟨1, _⟩ => show win0_0.index t (1 : Fin 2) * 512 + 1 * k.val = k.val; omega

theorem enc_emb1 (t : Fin cfg0.N) (k : Fin 512) (q : Fin 64) :
    ((cfg0.win 1).blk t).view.emb (ix2 k q) = ix2 k q := by
  obtain ⟨-, -, e2, e3, -⟩ := enc_idx t
  funext a; apply Fin.ext
  match a with
  | ⟨0, _⟩ => show win0_1.index t (0 : Fin 2) * 512 + 1 * k.val = k.val; omega
  | ⟨1, _⟩ => show win0_1.index t (1 : Fin 2) * 64 + 1 * q.val = q.val; omega

theorem enc_emb2 (t : Fin cfg0.N) (u : Fin 1) (q : Fin 64) :
    ((cfg0.win 2).blk t).view.emb (ix2 u q) = ix2 u q := by
  obtain ⟨-, -, -, -, e4, e5, -⟩ := enc_idx t
  funext a; apply Fin.ext
  match a with
  | ⟨0, _⟩ => show win0_2.index t (0 : Fin 2) * 1 + 1 * u.val = u.val; omega
  | ⟨1, _⟩ => show win0_2.index t (1 : Fin 2) * 64 + 1 * q.val = q.val; omega

theorem enc_emb3 (t : Fin cfg0.N) (p : Fin 5000) (q : Fin 64) :
    ((cfg0.win 3).blk t).view.emb (ix2 p q) = ix2 (encRow t p) q := by
  obtain ⟨-, -, -, -, -, -, e6, e7⟩ := enc_idx t
  funext a; apply Fin.ext
  match a with
  | ⟨0, _⟩ => show win0_3.index t (0 : Fin 2) * 5000 + 1 * p.val = t.val * 5000 + p.val; omega
  | ⟨1, _⟩ => show win0_3.index t (1 : Fin 2) * 64 + 1 * q.val = q.val; omega

variable (V : (c : Dev nD) → (b : Ref sig .tc) → Buf (Elt Ideal) ((c : Thread nD τ).loc b)) (c : Dev nD)

/-- What point t writes back is block t of the encoder of the arrays the region found. -/
theorem enc_flushed (t : Fin cfg0.N) :
    (dat0 (F := Ideal) V c).flushed 3 t = ((cfg0.win 3).blk t).view.read (Elt Ideal)
      (Cert.Sage.encR (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero enc_hz]
  simp only [View.ld_unit_zero (S := S5000x512) enc_hz, View.ld_unit_zero (S := S512x64) enc_hz, View.ld_unit_zero (S := S1x64) enc_hz]
  funext j
  obtain ⟨p, q, rfl⟩ : ∃ (p : Fin 5000) (q : Fin 64), j = ix2 p q := ⟨j 0, j 1, eq_ix2 j⟩
  refine (Cert.KernelIdeal.Blocks.enc_payload (iblk0 V c 0 t) (iblk0 V c 1 t) (iblk0 V c 2 t) p q).trans ?_
  show _ = Cert.Sage.encR (V c (Pipeline.arrRef spec0 0)) (V c (Pipeline.arrRef spec0 1)) (V c (Pipeline.arrRef spec0 2))
    (((cfg0.win 3).blk t).view.emb (ix2 p q))
  rw [enc_emb3, Cert.Sage.encR_apply]
  unfold Cert.Sage.encAt
  have hx : ∀ k : Fin 512, iblk0 V c 0 t (ix2 p k) = V c (Pipeline.arrRef spec0 0) (ix2 (encRow t p) k) := fun k => by
    show V c (Pipeline.arrRef spec0 0) (((cfg0.win 0).blk t).view.emb (ix2 p k)) = _
    rw [enc_emb0]
  have hw : ∀ k : Fin 512, iblk0 V c 1 t (ix2 k q) = V c (Pipeline.arrRef spec0 1) (ix2 k q) := fun k => by
    show V c (Pipeline.arrRef spec0 1) (((cfg0.win 1).blk t).view.emb (ix2 k q)) = _
    rw [enc_emb1]
  have hb : iblk0 V c 2 t (ix2 (0 : Fin 1) q) = V c (Pipeline.arrRef spec0 2) (ix2 (0 : Fin 1) q) := by
    show V c (Pipeline.arrRef spec0 2) (((cfg0.win 2).blk t).view.emb (ix2 (0 : Fin 1) q)) = _
    rw [enc_emb2]
  rw [hb]
  exact congrArg (fun s : EReal => s + V c (Pipeline.arrRef spec0 2) (ix2 (0 : Fin 1) q))
    (Finset.sum_congr rfl fun k _ => by rw [hx k, hw k])

/-- An index of the array is in point t's block iff each coordinate is in the block's range on its axis. -/
theorem enc_mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v17).slice (win0_3.rect t)).set ↔ _
  rw [View.set_slice_whole, Rect.mem_set_unit]
  exact Iff.rfl

/-- Every row of the array is in some point's block: row r in block r / 5000. -/
theorem enc_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 5000, by rw [show cfg0.N = 20 from N_0]; omega⟩
  obtain ⟨-, -, -, -, -, -, e6, e7⟩ := enc_idx t
  have ht : t.val = (i 0).val / 5000 := rfl
  refine ⟨t, flush0_3 t, ?_⟩
  rw [enc_mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After the encoder region the output array is the encoder of the arrays the region found. -/
theorem enc_array :
    (dat0 (F := Ideal) V c).arrAt 3 cfg0.N
      = Cert.Sage.encR (V c (Pipeline.arrRef spec0 0)) (V c (Pipeline.arrRef spec0 1)) (V c (Pipeline.arrRef spec0 2)) :=
  (dat0 (F := Ideal) V c).arrAt_eq_of_cover 3 _ (fun t _ => enc_flushed V c t) enc_cover

end Cert.KernelIdeal.Arrays

end
-- ==== Proof.Layer1Array.lean ====
/-
  Layer 1's output array after its twenty blocks of 5000 rows have been written back.

  Grid point t computes rows 5000 t … 5000 t + 4999 of the output from the same rows of the aggregated neighbour rows
  and of the current rows, the two whole 64 x 64 weight matrices and the bias row; the blocks are disjoint and together
  are all 100000 rows, so the array ends as the layer of the arrays the region found, entry by entry.
-/
import proofs.«122353_j15796889715042_1_alg».proof.Proof.Gen.KernelIdeal.Frame
import proofs.«122353_j15796889715042_1_alg».proof.Proof.Spec
import proofs.«122353_j15796889715042_1_alg».proof.Proof.Blocks
import Idealize.ShloMosaic.Lib.Pipeline.Value

noncomputable section

namespace Cert.KernelIdeal.Arrays

open Idealize.ShloMosaic Idealize.ShloMosaic.TcCoe Idealize.ShloMosaic.ValueIdx Idealize.SL.Sem Cert.KernelIdeal Cert.KernelIdeal.Gen

theorem layer1_hz : (![0, 0] : Fin 2 → Nat) = fun _ => 0 := funext fun a => by fin_cases a <;> rfl

/-- The index maps over the grid: the row blocks move with the point, everything else stays at block 0. -/
theorem layer1_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem layer1_lt (t : Fin cfg1.N) : t.val < 20 := lt_of_lt_of_eq t.isLt N_1

/-- Row p of point t's block is row 5000 t + p of the array. -/
def layer1Row (t : Fin cfg1.N) (p : Fin 5000) : Fin 100000 := ⟨t.val * 5000 + p.val, by have := layer1_lt t; have := p.isLt; omega⟩

theorem layer1_emb0 (t : Fin cfg1.N) (p : Fin 5000) (k : Fin 64) :
    ((cfg1.win 0).blk t).view.emb (ix2 p k) = ix2 (layer1Row t p) k := by
  obtain ⟨e0, e1, -⟩ := layer1_idx t
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

theorem layer1_emb1 (t : Fin cfg1.N) (p : Fin 5000) (k : Fin 64) :
    ((cfg1.win 1).blk t).view.emb (ix2 p k) = ix2 (layer1Row t p) k := by
  obtain ⟨-, -, e2, e3, -⟩ := layer1_idx t
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

theorem layer1_emb2 (t : Fin cfg1.N) (k : Fin 64) (q : Fin 64) :
    ((cfg1.win 2).blk t).view.emb (ix2 k q) = ix2 k q := by
  obtain ⟨-, -, -, -, e4, e5, -⟩ := layer1_idx t
  funext a; apply Fin.ext
  match a with
  | ⟨0, _⟩ => show win1_2.index t (0 : Fin 2) * 64 + 1 * k.val = k.val; omega
  | ⟨1, _⟩ => show win1_2.index t (1 : Fin 2) * 64 + 1 * q.val = q.val; omega

theorem layer1_emb3 (t : Fin cfg1.N) (k : Fin 64) (q : Fin 64) :
    ((cfg1.win 3).blk t).view.emb (ix2 k q) = ix2 k q := by
  obtain ⟨-, -, -, -, -, -, e6, e7, -⟩ := layer1_idx t
  funext a; apply Fin.ext
  match a with
  | ⟨0, _⟩ => show win1_3.index t (0 : Fin 2) * 64 + 1 * k.val = k.val; omega
  | ⟨1, _⟩ => show win1_3.index t (1 : Fin 2) * 64 + 1 * q.val = q.val; omega

theorem layer1_emb4 (t : Fin cfg1.N) (u : Fin 1) (q : Fin 64) :
    ((cfg1.win 4).blk t).view.emb (ix2 u q) = ix2 u q := by
  obtain ⟨-, -, -, -, -, -, -, -, e8, e9, -⟩ := layer1_idx t
  funext a; apply Fin.ext
  match a with
  | ⟨0, _⟩ => show win1_4.index t (0 : Fin 2) * 1 + 1 * u.val = u.val; omega
  | ⟨1, _⟩ => show win1_4.index t (1 : Fin 2) * 64 + 1 * q.val = q.val; omega

theorem layer1_emb5 (t : Fin cfg1.N) (p : Fin 5000) (q : Fin 64) :
    ((cfg1.win 5).blk t).view.emb (ix2 p q) = ix2 (layer1Row t p) q := by
  obtain ⟨-, -, -, -, -, -, -, -, -, -, e10, e11⟩ := layer1_idx t
  funext a; apply Fin.ext
  match a with
  | ⟨0, _⟩ => show win1_5.index t (0 : Fin 2) * 5000 + 1 * p.val = t.val * 5000 + p.val; omega
  | ⟨1, _⟩ => show win1_5.index t (1 : Fin 2) * 64 + 1 * q.val = q.val; omega

variable (V : (c : Dev nD) → (b : Ref sig .tc) → Buf (Elt Ideal) ((c : Thread nD τ).loc b)) (c : Dev nD)

/-- A block of an input window reads the region's array at the block's place in it. -/
theorem layer1_read0 (t : Fin cfg1.N) (p : Fin 5000) (k : Fin 64) (i : S100000x64.Idx)
    (h : ((cfg1.win 0).blk t).view.emb (ix2 p k) = i) : iblk1 V c 0 t (ix2 p k) = V c (Pipeline.arrRef spec1 0) i := by
  show V c (Pipeline.arrRef spec1 0) (((cfg1.win 0).blk t).view.emb (ix2 p k)) = _
  rw [h]
theorem layer1_read1 (t : Fin cfg1.N) (p : Fin 5000) (k : Fin 64) (i : S100000x64.Idx)
    (h : ((cfg1.win 1).blk t).view.emb (ix2 p k) = i) : iblk1 V c 1 t (ix2 p k) = V c (Pipeline.arrRef spec1 1) i := by
  show V c (Pipeline.arrRef spec1 1) (((cfg1.win 1).blk t).view.emb (ix2 p k)) = _
  rw [h]
theorem layer1_read2 (t : Fin cfg1.N) (k q : Fin 64) (i : S64x64.Idx)
    (h : ((cfg1.win 2).blk t).view.emb (ix2 k q) = i) : iblk1 V c 2 t (ix2 k q) = V c (Pipeline.arrRef spec1 2) i := by
  show V c (Pipeline.arrRef spec1 2) (((cfg1.win 2).blk t).view.emb (ix2 k q)) = _
  rw [h]
theorem layer1_read3 (t : Fin cfg1.N) (k q : Fin 64) (i : S64x64.Idx)
    (h : ((cfg1.win 3).blk t).view.emb (ix2 k q) = i) : iblk1 V c 3 t (ix2 k q) = V c (Pipeline.arrRef spec1 3) i := by
  show V c (Pipeline.arrRef spec1 3) (((cfg1.win 3).blk t).view.emb (ix2 k q)) = _
  rw [h]
theorem layer1_read4 (t : Fin cfg1.N) (u : Fin 1) (q : Fin 64) (i : S1x64.Idx)
    (h : ((cfg1.win 4).blk t).view.emb (ix2 u q) = i) : iblk1 V c 4 t (ix2 u q) = V c (Pipeline.arrRef spec1 4) i := by
  show V c (Pipeline.arrRef spec1 4) (((cfg1.win 4).blk t).view.emb (ix2 u q)) = _
  rw [h]

/-- What point t writes back is block t of the layer of the arrays the region found. -/
theorem layer1_flushed (t : Fin cfg1.N) :
    (dat1 (F := Ideal) V c).flushed 5 t = ((cfg1.win 5).blk t).view.read (Elt Ideal)
      (Cert.Sage.layerR (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 (F := Ideal) V c).after 5 t) = _
  rw [after1_5]
  unfold out1_5
  rw [View.canon_unit_zero layer1_hz]
  simp only [View.ld_unit_zero (S := S5000x64) layer1_hz, View.ld_unit_zero (S := S64x64) layer1_hz, View.ld_unit_zero (S := S1x64) layer1_hz]
  funext j
  obtain ⟨p, q, rfl⟩ : ∃ (p : Fin 5000) (q : Fin 64), j = ix2 p q := ⟨j 0, j 1, eq_ix2 j⟩
  refine (Cert.KernelIdeal.Blocks.layer_payload (iblk1 V c 0 t) (iblk1 V c 1 t) (iblk1 V c 2 t) (iblk1 V c 3 t)
    (iblk1 V c 4 t) (iblk1 V c 1 t) p q).trans ?_
  show _ = Cert.Sage.layerR (V c (Pipeline.arrRef spec1 0)) (V c (Pipeline.arrRef spec1 1)) (V c (Pipeline.arrRef spec1 2))
    (V c (Pipeline.arrRef spec1 3)) (V c (Pipeline.arrRef spec1 4)) (((cfg1.win 5).blk t).view.emb (ix2 p q))
  rw [layer1_emb5, Cert.Sage.layerR_apply]
  unfold Cert.Sage.layerAt
  have ha : ∀ k : Fin 64, iblk1 V c 0 t (ix2 p k) = V c (Pipeline.arrRef spec1 0) (ix2 (layer1Row t p) k) :=
    fun k => layer1_read0 V c t p k _ (layer1_emb0 t p k)
  have hh : ∀ k : Fin 64, iblk1 V c 1 t (ix2 p k) = V c (Pipeline.arrRef spec1 1) (ix2 (layer1Row t p) k) :=
    fun k => layer1_read1 V c t p k _ (layer1_emb1 t p k)
  have hwl : ∀ k : Fin 64, iblk1 V c 2 t (ix2 k q) = V c (Pipeline.arrRef spec1 2) (ix2 k q) :=
    fun k => layer1_read2 V c t k q _ (layer1_emb2 t k q)
  have hwr : ∀ k : Fin 64, iblk1 V c 3 t (ix2 k q) = V c (Pipeline.arrRef spec1 3) (ix2 k q) :=
    fun k => layer1_read3 V c t k q _ (layer1_emb3 t k q)
  have hb : iblk1 V c 4 t (ix2 (0 : Fin 1) q) = V c (Pipeline.arrRef spec1 4) (ix2 (0 : Fin 1) q) :=
    layer1_read4 V c t (0 : Fin 1) q _ (layer1_emb4 t (0 : Fin 1) q)
  exact congrArg₂ (fun (u v : EReal) => max u v)
    (congrArg₂ (fun (u v : EReal) => u + v) (hh q)
      (congrArg₂ (fun (u v : EReal) => u + v)
        (congrArg₂ (fun (u v : EReal) => u + v)
          (Finset.sum_congr rfl fun k _ => congrArg₂ (fun (u v : EReal) => u * v) (ha k) (hwl k)) hb)
        (Finset.sum_congr rfl fun k _ => congrArg₂ (fun (u v : EReal) => u * v) (hh k) (hwr k)))) rfl

/-- An index of the array is in point t's block iff each coordinate is in the block's range on its axis. -/
theorem layer1_mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v37).slice (win1_5.rect t)).set ↔ _
  rw [View.set_slice_whole, Rect.mem_set_unit]
  exact Iff.rfl

/-- Every row of the array is in some point's block: row r in block r / 5000. -/
theorem layer1_cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 5000, by rw [show cfg1.N = 20 from N_1]; omega⟩
  obtain ⟨-, -, -, -, -, -, -, -, -, -, e10, e11⟩ := layer1_idx t
  have ht : t.val = (i 0).val / 5000 := rfl
  refine ⟨t, flush1_5 t, ?_⟩
  rw [layer1_mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the layer's region the output array is the layer of the arrays the region found. -/
theorem layer1_array :
    (dat1 (F := Ideal) V c).arrAt 5 cfg1.N
      = Cert.Sage.layerR (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => layer1_flushed V c t) layer1_cover

end Cert.KernelIdeal.Arrays

end
-- ==== Proof.Layer2Array.lean ====
/-
  Layer 2's output array after its twenty blocks of 5000 rows have been written back.

  Grid point t computes rows 5000 t … 5000 t + 4999 of the output from the same rows of the aggregated neighbour rows
  and of the current rows, the two whole 64 x 64 weight matrices and the bias row; the blocks are disjoint and together
  are all 100000 rows, so the array ends as the layer of the arrays the region found, entry by entry.
-/
import proofs.«122353_j15796889715042_1_alg».proof.Proof.Gen.KernelIdeal.Frame
import proofs.«122353_j15796889715042_1_alg».proof.Proof.Spec
import proofs.«122353_j15796889715042_1_alg».proof.Proof.Blocks
import Idealize.ShloMosaic.Lib.Pipeline.Value

noncomputable section

namespace Cert.KernelIdeal.Arrays

open Idealize.ShloMosaic Idealize.ShloMosaic.TcCoe Idealize.ShloMosaic.ValueIdx Idealize.SL.Sem Cert.KernelIdeal Cert.KernelIdeal.Gen

theorem layer2_hz : (![0, 0] : Fin 2 → Nat) = fun _ => 0 := funext fun a => by fin_cases a <;> rfl

/-- The index maps over the grid: the row blocks move with the point, everything else stays at block 0. -/
theorem layer2_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem layer2_lt (t : Fin cfg2.N) : t.val < 20 := lt_of_lt_of_eq t.isLt N_2

/-- Row p of point t's block is row 5000 t + p of the array. -/
def layer2Row (t : Fin cfg2.N) (p : Fin 5000) : Fin 100000 := ⟨t.val * 5000 + p.val, by have := layer2_lt t; have := p.isLt; omega⟩

theorem layer2_emb0 (t : Fin cfg2.N) (p : Fin 5000) (k : Fin 64) :
    ((cfg2.win 0).blk t).view.emb (ix2 p k) = ix2 (layer2Row t p) k := by
  obtain ⟨e0, e1, -⟩ := layer2_idx t
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

theorem layer2_emb1 (t : Fin cfg2.N) (p : Fin 5000) (k : Fin 64) :
    ((cfg2.win 1).blk t).view.emb (ix2 p k) = ix2 (layer2Row t p) k := by
  obtain ⟨-, -, e2, e3, -⟩ := layer2_idx t
  funext a; apply Fin.ext
  match a with
  | ⟨0, _⟩ => show win2_1.index t (0 : Fin 2) * 5000 + 1 * p.val = t.val * 5000 + p.val; omega
  | ⟨1, _⟩ => show win2_1.index t (1 : Fin 2) * 64 + 1 * k.val = k.val; omega

theorem layer2_emb2 (t : Fin cfg2.N) (k : Fin 64) (q : Fin 64) :
    ((cfg2.win 2).blk t).view.emb (ix2 k q) = ix2 k q := by
  obtain ⟨-, -, -, -, e4, e5, -⟩ := layer2_idx t
  funext a; apply Fin.ext
  match a with
  | ⟨0, _⟩ => show win2_2.index t (0 : Fin 2) * 64 + 1 * k.val = k.val; omega
  | ⟨1, _⟩ => show win2_2.index t (1 : Fin 2) * 64 + 1 * q.val = q.val; omega

theorem layer2_emb3 (t : Fin cfg2.N) (k : Fin 64) (q : Fin 64) :
    ((cfg2.win 3).blk t).view.emb (ix2 k q) = ix2 k q := by
  obtain ⟨-, -, -, -, -, -, e6, e7, -⟩ := layer2_idx t
  funext a; apply Fin.ext
  match a with
  | ⟨0, _⟩ => show win2_3.index t (0 : Fin 2) * 64 + 1 * k.val = k.val; omega
  | ⟨1, _⟩ => show win2_3.index t (1 : Fin 2) * 64 + 1 * q.val = q.val; omega

theorem layer2_emb4 (t : Fin cfg2.N) (u : Fin 1) (q : Fin 64) :
    ((cfg2.win 4).blk t).view.emb (ix2 u q) = ix2 u q := by
  obtain ⟨-, -, -, -, -, -, -, -, e8, e9, -⟩ := layer2_idx t
  funext a; apply Fin.ext
  match a with
  | ⟨0, _⟩ => show win2_4.index t (0 : Fin 2) * 1 + 1 * u.val = u.val; omega
  | ⟨1, _⟩ => show win2_4.index t (1 : Fin 2) * 64 + 1 * q.val = q.val; omega

theorem layer2_emb5 (t : Fin cfg2.N) (p : Fin 5000) (q : Fin 64) :
    ((cfg2.win 5).blk t).view.emb (ix2 p q) = ix2 (layer2Row t p) q := by
  obtain ⟨-, -, -, -, -, -, -, -, -, -, e10, e11⟩ := layer2_idx t
  funext a; apply Fin.ext
  match a with
  | ⟨0, _⟩ => show win2_5.index t (0 : Fin 2) * 5000 + 1 * p.val = t.val * 5000 + p.val; omega
  | ⟨1, _⟩ => show win2_5.index t (1 : Fin 2) * 64 + 1 * q.val = q.val; omega

variable (V : (c : Dev nD) → (b : Ref sig .tc) → Buf (Elt Ideal) ((c : Thread nD τ).loc b)) (c : Dev nD)

/-- A block of an input window reads the region's array at the block's place in it. -/
theorem layer2_read0 (t : Fin cfg2.N) (p : Fin 5000) (k : Fin 64) (i : S100000x64.Idx)
    (h : ((cfg2.win 0).blk t).view.emb (ix2 p k) = i) : iblk2 V c 0 t (ix2 p k) = V c (Pipeline.arrRef spec2 0) i := by
  show V c (Pipeline.arrRef spec2 0) (((cfg2.win 0).blk t).view.emb (ix2 p k)) = _
  rw [h]
theorem layer2_read1 (t : Fin cfg2.N) (p : Fin 5000) (k : Fin 64) (i : S100000x64.Idx)
    (h : ((cfg2.win 1).blk t).view.emb (ix2 p k) = i) : iblk2 V c 1 t (ix2 p k) = V c (Pipeline.arrRef spec2 1) i := by
  show V c (Pipeline.arrRef spec2 1) (((cfg2.win 1).blk t).view.emb (ix2 p k)) = _
  rw [h]
theorem layer2_read2 (t : Fin cfg2.N) (k q : Fin 64) (i : S64x64.Idx)
    (h : ((cfg2.win 2).blk t).view.emb (ix2 k q) = i) : iblk2 V c 2 t (ix2 k q) = V c (Pipeline.arrRef spec2 2) i := by
  show V c (Pipeline.arrRef spec2 2) (((cfg2.win 2).blk t).view.emb (ix2 k q)) = _
  rw [h]
theorem layer2_read3 (t : Fin cfg2.N) (k q : Fin 64) (i : S64x64.Idx)
    (h : ((cfg2.win 3).blk t).view.emb (ix2 k q) = i) : iblk2 V c 3 t (ix2 k q) = V c (Pipeline.arrRef spec2 3) i := by
  show V c (Pipeline.arrRef spec2 3) (((cfg2.win 3).blk t).view.emb (ix2 k q)) = _
  rw [h]
theorem layer2_read4 (t : Fin cfg2.N) (u : Fin 1) (q : Fin 64) (i : S1x64.Idx)
    (h : ((cfg2.win 4).blk t).view.emb (ix2 u q) = i) : iblk2 V c 4 t (ix2 u q) = V c (Pipeline.arrRef spec2 4) i := by
  show V c (Pipeline.arrRef spec2 4) (((cfg2.win 4).blk t).view.emb (ix2 u q)) = _
  rw [h]

set_option maxHeartbeats 1000000 in
/-- What point t writes back is block t of the layer of the arrays the region found. -/
theorem layer2_flushed (t : Fin cfg2.N) :
    (dat2 (F := Ideal) V c).flushed 5 t = ((cfg2.win 5).blk t).view.read (Elt Ideal)
      (Cert.Sage.layerR (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero layer2_hz]
  simp only [View.ld_unit_zero (S := S5000x64) layer2_hz, View.ld_unit_zero (S := S64x64) layer2_hz, View.ld_unit_zero (S := S1x64) layer2_hz]
  funext j
  obtain ⟨p, q, rfl⟩ : ∃ (p : Fin 5000) (q : Fin 64), j = ix2 p q := ⟨j 0, j 1, eq_ix2 j⟩
  refine (Cert.KernelIdeal.Blocks.layer_payload2 (iblk2 V c 0 t) (iblk2 V c 1 t) (iblk2 V c 2 t) (iblk2 V c 3 t)
    (iblk2 V c 4 t) (iblk2 V c 1 t) p q).trans ?_
  show _ = Cert.Sage.layerR (V c (Pipeline.arrRef spec2 0)) (V c (Pipeline.arrRef spec2 1)) (V c (Pipeline.arrRef spec2 2))
    (V c (Pipeline.arrRef spec2 3)) (V c (Pipeline.arrRef spec2 4)) (((cfg2.win 5).blk t).view.emb (ix2 p q))
  rw [layer2_emb5, Cert.Sage.layerR_apply]
  unfold Cert.Sage.layerAt
  have ha : ∀ k : Fin 64, iblk2 V c 0 t (ix2 p k) = V c (Pipeline.arrRef spec2 0) (ix2 (layer2Row t p) k) :=
    fun k => layer2_read0 V c t p k _ (layer2_emb0 t p k)
  have hh : ∀ k : Fin 64, iblk2 V c 1 t (ix2 p k) = V c (Pipeline.arrRef spec2 1) (ix2 (layer2Row t p) k) :=
    fun k => layer2_read1 V c t p k _ (layer2_emb1 t p k)
  have hwl : ∀ k : Fin 64, iblk2 V c 2 t (ix2 k q) = V c (Pipeline.arrRef spec2 2) (ix2 k q) :=
    fun k => layer2_read2 V c t k q _ (layer2_emb2 t k q)
  have hwr : ∀ k : Fin 64, iblk2 V c 3 t (ix2 k q) = V c (Pipeline.arrRef spec2 3) (ix2 k q) :=
    fun k => layer2_read3 V c t k q _ (layer2_emb3 t k q)
  have hb : iblk2 V c 4 t (ix2 (0 : Fin 1) q) = V c (Pipeline.arrRef spec2 4) (ix2 (0 : Fin 1) q) :=
    layer2_read4 V c t (0 : Fin 1) q _ (layer2_emb4 t (0 : Fin 1) q)
  exact congrArg₂ (fun (u v : EReal) => max u v)
    (congrArg₂ (fun (u v : EReal) => u + v) (hh q)
      (congrArg₂ (fun (u v : EReal) => u + v)
        (congrArg₂ (fun (u v : EReal) => u + v)
          (Finset.sum_congr rfl fun k _ => congrArg₂ (fun (u v : EReal) => u * v) (ha k) (hwl k)) hb)
        (Finset.sum_congr rfl fun k _ => congrArg₂ (fun (u v : EReal) => u * v) (hh k) (hwr k)))) rfl

/-- An index of the array is in point t's block iff each coordinate is in the block's range on its axis. -/
theorem layer2_mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v57).slice (win2_5.rect t)).set ↔ _
  rw [View.set_slice_whole, Rect.mem_set_unit]
  exact Iff.rfl

/-- Every row of the array is in some point's block: row r in block r / 5000. -/
theorem layer2_cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 5000, by rw [show cfg2.N = 20 from N_2]; omega⟩
  obtain ⟨-, -, -, -, -, -, -, -, -, -, e10, e11⟩ := layer2_idx t
  have ht : t.val = (i 0).val / 5000 := rfl
  refine ⟨t, flush2_5 t, ?_⟩
  rw [layer2_mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- After the layer's region the output array is the layer of the arrays the region found. -/
theorem layer2_array :
    (dat2 (F := Ideal) V c).arrAt 5 cfg2.N
      = Cert.Sage.layerR (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => layer2_flushed V c t) layer2_cover

end Cert.KernelIdeal.Arrays

end
-- ==== Proof.Layer3Array.lean ====
/-
  Layer 3's output array after its twenty blocks of 5000 rows have been written back.

  Grid point t computes rows 5000 t … 5000 t + 4999 of the output from the same rows of the aggregated neighbour rows
  and of the current rows, the two whole 64 x 64 weight matrices and the bias row; the blocks are disjoint and together
  are all 100000 rows, so the array ends as the layer of the arrays the region found, entry by entry.
-/
import proofs.«122353_j15796889715042_1_alg».proof.Proof.Gen.KernelIdeal.Frame
import proofs.«122353_j15796889715042_1_alg».proof.Proof.Spec
import proofs.«122353_j15796889715042_1_alg».proof.Proof.Blocks
import Idealize.ShloMosaic.Lib.Pipeline.Value

noncomputable section

namespace Cert.KernelIdeal.Arrays

open Idealize.ShloMosaic Idealize.ShloMosaic.TcCoe Idealize.ShloMosaic.ValueIdx Idealize.SL.Sem Cert.KernelIdeal Cert.KernelIdeal.Gen

theorem layer3_hz : (![0, 0] : Fin 2 → Nat) = fun _ => 0 := funext fun a => by fin_cases a <;> rfl

/-- The index maps over the grid: the row blocks move with the point, everything else stays at block 0. -/
theorem layer3_idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem layer3_lt (t : Fin cfg3.N) : t.val < 20 := lt_of_lt_of_eq t.isLt N_3

/-- Row p of point t's block is row 5000 t + p of the array. -/
def layer3Row (t : Fin cfg3.N) (p : Fin 5000) : Fin 100000 := ⟨t.val * 5000 + p.val, by have := layer3_lt t; have := p.isLt; omega⟩

theorem layer3_emb0 (t : Fin cfg3.N) (p : Fin 5000) (k : Fin 64) :
    ((cfg3.win 0).blk t).view.emb (ix2 p k) = ix2 (layer3Row t p) k := by
  obtain ⟨e0, e1, -⟩ := layer3_idx t
  funext a; apply Fin.ext
  match a with
  | ⟨0, _⟩ => show win3_0.index t (0 : Fin 2) * 5000 + 1 * p.val = t.val * 5000 + p.val; omega
  | ⟨1, _⟩ => show win3_0.index t (1 : Fin 2) * 64 + 1 * k.val = k.val; omega

theorem layer3_emb1 (t : Fin cfg3.N) (p : Fin 5000) (k : Fin 64) :
    ((cfg3.win 1).blk t).view.emb (ix2 p k) = ix2 (layer3Row t p) k := by
  obtain ⟨-, -, e2, e3, -⟩ := layer3_idx t
  funext a; apply Fin.ext
  match a with
  | ⟨0, _⟩ => show win3_1.index t (0 : Fin 2) * 5000 + 1 * p.val = t.val * 5000 + p.val; omega
  | ⟨1, _⟩ => show win3_1.index t (1 : Fin 2) * 64 + 1 * k.val = k.val; omega

theorem layer3_emb2 (t : Fin cfg3.N) (k : Fin 64) (q : Fin 64) :
    ((cfg3.win 2).blk t).view.emb (ix2 k q) = ix2 k q := by
  obtain ⟨-, -, -, -, e4, e5, -⟩ := layer3_idx t
  funext a; apply Fin.ext
  match a with
  | ⟨0, _⟩ => show win3_2.index t (0 : Fin 2) * 64 + 1 * k.val = k.val; omega
  | ⟨1, _⟩ => show win3_2.index t (1 : Fin 2) * 64 + 1 * q.val = q.val; omega

theorem layer3_emb3 (t : Fin cfg3.N) (k : Fin 64) (q : Fin 64) :
    ((cfg3.win 3).blk t).view.emb (ix2 k q) = ix2 k q := by
  obtain ⟨-, -, -, -, -, -, e6, e7, -⟩ := layer3_idx t
  funext a; apply Fin.ext
  match a with
  | ⟨0, _⟩ => show win3_3.index t (0 : Fin 2) * 64 + 1 * k.val = k.val; omega
  | ⟨1, _⟩ => show win3_3.index t (1 : Fin 2) * 64 + 1 * q.val = q.val; omega

theorem layer3_emb4 (t : Fin cfg3.N) (u : Fin 1) (q : Fin 64) :
    ((cfg3.win 4).blk t).view.emb (ix2 u q) = ix2 u q := by
  obtain ⟨-, -, -, -, -, -, -, -, e8, e9, -⟩ := layer3_idx t
  funext a; apply Fin.ext
  match a with
  | ⟨0, _⟩ => show win3_4.index t (0 : Fin 2) * 1 + 1 * u.val = u.val; omega
  | ⟨1, _⟩ => show win3_4.index t (1 : Fin 2) * 64 + 1 * q.val = q.val; omega

theorem layer3_emb5 (t : Fin cfg3.N) (p : Fin 5000) (q : Fin 64) :
    ((cfg3.win 5).blk t).view.emb (ix2 p q) = ix2 (layer3Row t p) q := by
  obtain ⟨-, -, -, -, -, -, -, -, -, -, e10, e11⟩ := layer3_idx t
  funext a; apply Fin.ext
  match a with
  | ⟨0, _⟩ => show win3_5.index t (0 : Fin 2) * 5000 + 1 * p.val = t.val * 5000 + p.val; omega
  | ⟨1, _⟩ => show win3_5.index t (1 : Fin 2) * 64 + 1 * q.val = q.val; omega

variable (V : (c : Dev nD) → (b : Ref sig .tc) → Buf (Elt Ideal) ((c : Thread nD τ).loc b)) (c : Dev nD)

/-- A block of an input window reads the region's array at the block's place in it. -/
theorem layer3_read0 (t : Fin cfg3.N) (p : Fin 5000) (k : Fin 64) (i : S100000x64.Idx)
    (h : ((cfg3.win 0).blk t).view.emb (ix2 p k) = i) : iblk3 V c 0 t (ix2 p k) = V c (Pipeline.arrRef spec3 0) i := by
  show V c (Pipeline.arrRef spec3 0) (((cfg3.win 0).blk t).view.emb (ix2 p k)) = _
  rw [h]
theorem layer3_read1 (t : Fin cfg3.N) (p : Fin 5000) (k : Fin 64) (i : S100000x64.Idx)
    (h : ((cfg3.win 1).blk t).view.emb (ix2 p k) = i) : iblk3 V c 1 t (ix2 p k) = V c (Pipeline.arrRef spec3 1) i := by
  show V c (Pipeline.arrRef spec3 1) (((cfg3.win 1).blk t).view.emb (ix2 p k)) = _
  rw [h]
theorem layer3_read2 (t : Fin cfg3.N) (k q : Fin 64) (i : S64x64.Idx)
    (h : ((cfg3.win 2).blk t).view.emb (ix2 k q) = i) : iblk3 V c 2 t (ix2 k q) = V c (Pipeline.arrRef spec3 2) i := by
  show V c (Pipeline.arrRef spec3 2) (((cfg3.win 2).blk t).view.emb (ix2 k q)) = _
  rw [h]
theorem layer3_read3 (t : Fin cfg3.N) (k q : Fin 64) (i : S64x64.Idx)
    (h : ((cfg3.win 3).blk t).view.emb (ix2 k q) = i) : iblk3 V c 3 t (ix2 k q) = V c (Pipeline.arrRef spec3 3) i := by
  show V c (Pipeline.arrRef spec3 3) (((cfg3.win 3).blk t).view.emb (ix2 k q)) = _
  rw [h]
theorem layer3_read4 (t : Fin cfg3.N) (u : Fin 1) (q : Fin 64) (i : S1x64.Idx)
    (h : ((cfg3.win 4).blk t).view.emb (ix2 u q) = i) : iblk3 V c 4 t (ix2 u q) = V c (Pipeline.arrRef spec3 4) i := by
  show V c (Pipeline.arrRef spec3 4) (((cfg3.win 4).blk t).view.emb (ix2 u q)) = _
  rw [h]

set_option maxHeartbeats 1000000 in
/-- What point t writes back is block t of the layer of the arrays the region found. -/
theorem layer3_flushed (t : Fin cfg3.N) :
    (dat3 (F := Ideal) V c).flushed 5 t = ((cfg3.win 5).blk t).view.read (Elt Ideal)
      (Cert.Sage.layerR (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 (F := Ideal) V c).after 5 t) = _
  rw [after3_5]
  unfold out3_5
  rw [View.canon_unit_zero layer3_hz]
  simp only [View.ld_unit_zero (S := S5000x64) layer3_hz, View.ld_unit_zero (S := S64x64) layer3_hz, View.ld_unit_zero (S := S1x64) layer3_hz]
  funext j
  obtain ⟨p, q, rfl⟩ : ∃ (p : Fin 5000) (q : Fin 64), j = ix2 p q := ⟨j 0, j 1, eq_ix2 j⟩
  refine (Cert.KernelIdeal.Blocks.layer_payload3 (iblk3 V c 0 t) (iblk3 V c 1 t) (iblk3 V c 2 t) (iblk3 V c 3 t)
    (iblk3 V c 4 t) (iblk3 V c 1 t) p q).trans ?_
  show _ = Cert.Sage.layerR (V c (Pipeline.arrRef spec3 0)) (V c (Pipeline.arrRef spec3 1)) (V c (Pipeline.arrRef spec3 2))
    (V c (Pipeline.arrRef spec3 3)) (V c (Pipeline.arrRef spec3 4)) (((cfg3.win 5).blk t).view.emb (ix2 p q))
  rw [layer3_emb5, Cert.Sage.layerR_apply]
  unfold Cert.Sage.layerAt
  have ha : ∀ k : Fin 64, iblk3 V c 0 t (ix2 p k) = V c (Pipeline.arrRef spec3 0) (ix2 (layer3Row t p) k) :=
    fun k => layer3_read0 V c t p k _ (layer3_emb0 t p k)
  have hh : ∀ k : Fin 64, iblk3 V c 1 t (ix2 p k) = V c (Pipeline.arrRef spec3 1) (ix2 (layer3Row t p) k) :=
    fun k => layer3_read1 V c t p k _ (layer3_emb1 t p k)
  have hwl : ∀ k : Fin 64, iblk3 V c 2 t (ix2 k q) = V c (Pipeline.arrRef spec3 2) (ix2 k q) :=
    fun k => layer3_read2 V c t k q _ (layer3_emb2 t k q)
  have hwr : ∀ k : Fin 64, iblk3 V c 3 t (ix2 k q) = V c (Pipeline.arrRef spec3 3) (ix2 k q) :=
    fun k => layer3_read3 V c t k q _ (layer3_emb3 t k q)
  have hb : iblk3 V c 4 t (ix2 (0 : Fin 1) q) = V c (Pipeline.arrRef spec3 4) (ix2 (0 : Fin 1) q) :=
    layer3_read4 V c t (0 : Fin 1) q _ (layer3_emb4 t (0 : Fin 1) q)
  exact congrArg₂ (fun (u v : EReal) => max u v)
    (congrArg₂ (fun (u v : EReal) => u + v) (hh q)
      (congrArg₂ (fun (u v : EReal) => u + v)
        (congrArg₂ (fun (u v : EReal) => u + v)
          (Finset.sum_congr rfl fun k _ => congrArg₂ (fun (u v : EReal) => u * v) (ha k) (hwl k)) hb)
        (Finset.sum_congr rfl fun k _ => congrArg₂ (fun (u v : EReal) => u * v) (hh k) (hwr k)))) rfl

/-- An index of the array is in point t's block iff each coordinate is in the block's range on its axis. -/
theorem layer3_mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v77).slice (win3_5.rect t)).set ↔ _
  rw [View.set_slice_whole, Rect.mem_set_unit]
  exact Iff.rfl

/-- Every row of the array is in some point's block: row r in block r / 5000. -/
theorem layer3_cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  let t : Fin cfg3.N := ⟨(i 0).val / 5000, by rw [show cfg3.N = 20 from N_3]; omega⟩
  obtain ⟨-, -, -, -, -, -, -, -, -, -, e10, e11⟩ := layer3_idx t
  have ht : t.val = (i 0).val / 5000 := rfl
  refine ⟨t, flush3_5 t, ?_⟩
  rw [layer3_mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- After the layer's region the output array is the layer of the arrays the region found. -/
theorem layer3_array :
    (dat3 (F := Ideal) V c).arrAt 5 cfg3.N
      = Cert.Sage.layerR (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => layer3_flushed V c t) layer3_cover

end Cert.KernelIdeal.Arrays

end
-- ==== Proof.ClsArray.lean ====
/-
  The classifier's output array after its twenty blocks of 5000 rows have been written back.

  Grid point t computes rows 5000 t … 5000 t + 4999 of the single output column from the same rows of the current rows,
  the whole 64 x 1 weight column and the 1 x 1 bias; the blocks are disjoint and together are all 100000 rows, so the
  array ends as the classifier of the arrays the region found, entry by entry.
-/
import proofs.«122353_j15796889715042_1_alg».proof.Proof.Gen.KernelIdeal.Frame
import proofs.«122353_j15796889715042_1_alg».proof.Proof.Spec
import proofs.«122353_j15796889715042_1_alg».proof.Proof.Blocks
import Idealize.ShloMosaic.Lib.Pipeline.Value

noncomputable section

namespace Cert.KernelIdeal.Arrays

open Idealize.ShloMosaic Idealize.ShloMosaic.TcCoe Idealize.ShloMosaic.ValueIdx Idealize.SL.Sem Cert.KernelIdeal Cert.KernelIdeal.Gen

theorem cls_hz : (![0, 0] : Fin 2 → Nat) = fun _ => 0 := funext fun a => by fin_cases a <;> rfl

/-- The index maps over the grid: the row blocks move with the point, everything else stays at block 0. -/
theorem cls_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem cls_lt (t : Fin cfg4.N) : t.val < 20 := lt_of_lt_of_eq t.isLt N_4

/-- Row p of point t's block is row 5000 t + p of the array. -/
def clsRow (t : Fin cfg4.N) (p : Fin 5000) : Fin 100000 := ⟨t.val * 5000 + p.val, by have := cls_lt t; have := p.isLt; omega⟩

theorem cls_emb0 (t : Fin cfg4.N) (p : Fin 5000) (k : Fin 64) :
    ((cfg4.win 0).blk t).view.emb (ix2 p k) = ix2 (clsRow t p) k := by
  obtain ⟨e0, e1, -⟩ := cls_idx t
  funext a; apply Fin.ext
  match a with
  | ⟨0, _⟩ => show win4_0.index t (0 : Fin 2) * 5000 + 1 * p.val = t.val * 5000 + p.val; omega
  | ⟨1, _⟩ => show win4_0.index t (1 : Fin 2) * 64 + 1 * k.val = k.val; omega

theorem cls_emb1 (t : Fin cfg4.N) (k : Fin 64) (u : Fin 1) :
    ((cfg4.win 1).blk t).view.emb (ix2 k u) = ix2 k u := by
  obtain ⟨-, -, e2, e3, -⟩ := cls_idx t
  funext a; apply Fin.ext
  match a with
  | ⟨0, _⟩ => show win4_1.index t (0 : Fin 2) * 64 + 1 * k.val = k.val; omega
  | ⟨1, _⟩ => show win4_1.index t (1 : Fin 2) * 1 + 1 * u.val = u.val; omega

theorem cls_emb2 (t : Fin cfg4.N) (u v : Fin 1) :
    ((cfg4.win 2).blk t).view.emb (ix2 u v) = ix2 u v := by
  obtain ⟨-, -, -, -, e4, e5, -⟩ := cls_idx t
  funext a; apply Fin.ext
  match a with
  | ⟨0, _⟩ => show win4_2.index t (0 : Fin 2) * 1 + 1 * u.val = u.val; omega
  | ⟨1, _⟩ => show win4_2.index t (1 : Fin 2) * 1 + 1 * v.val = v.val; omega

theorem cls_emb3 (t : Fin cfg4.N) (p : Fin 5000) (u : Fin 1) :
    ((cfg4.win 3).blk t).view.emb (ix2 p u) = ix2 (clsRow t p) u := by
  obtain ⟨-, -, -, -, -, -, e6, e7⟩ := cls_idx t
  funext a; apply Fin.ext
  match a with
  | ⟨0, _⟩ => show win4_3.index t (0 : Fin 2) * 5000 + 1 * p.val = t.val * 5000 + p.val; omega
  | ⟨1, _⟩ => show win4_3.index t (1 : Fin 2) * 1 + 1 * u.val = u.val; omega

variable (V : (c : Dev nD) → (b : Ref sig .tc) → Buf (Elt Ideal) ((c : Thread nD τ).loc b)) (c : Dev nD)

/-- A block of an input window reads the region's array at the block's place in it. -/
theorem cls_read0 (t : Fin cfg4.N) (p : Fin 5000) (k : Fin 64) (i : S100000x64.Idx)
    (h : ((cfg4.win 0).blk t).view.emb (ix2 p k) = i) : iblk4 V c 0 t (ix2 p k) = V c (Pipeline.arrRef spec4 0) i := by
  show V c (Pipeline.arrRef spec4 0) (((cfg4.win 0).blk t).view.emb (ix2 p k)) = _
  rw [h]
theorem cls_read1 (t : Fin cfg4.N) (k : Fin 64) (u : Fin 1) (i : S64x1.Idx)
    (h : ((cfg4.win 1).blk t).view.emb (ix2 k u) = i) : iblk4 V c 1 t (ix2 k u) = V c (Pipeline.arrRef spec4 1) i := by
  show V c (Pipeline.arrRef spec4 1) (((cfg4.win 1).blk t).view.emb (ix2 k u)) = _
  rw [h]
theorem cls_read2 (t : Fin cfg4.N) (u v : Fin 1) (i : S1x1.Idx)
    (h : ((cfg4.win 2).blk t).view.emb (ix2 u v) = i) : iblk4 V c 2 t (ix2 u v) = V c (Pipeline.arrRef spec4 2) i := by
  show V c (Pipeline.arrRef spec4 2) (((cfg4.win 2).blk t).view.emb (ix2 u v)) = _
  rw [h]

/-- What point t writes back is block t of the classifier of the arrays the region found. -/
theorem cls_flushed (t : Fin cfg4.N) :
    (dat4 (F := Ideal) V c).flushed 3 t = ((cfg4.win 3).blk t).view.read (Elt Ideal)
      (Cert.Sage.clsR (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4_3
  rw [View.canon_unit_zero cls_hz]
  simp only [View.ld_unit_zero (S := S5000x64) cls_hz, View.ld_unit_zero (S := S64x1) cls_hz, View.ld_unit_zero (S := S1x1) cls_hz]
  funext j
  obtain ⟨p, u, rfl⟩ : ∃ (p : Fin 5000) (u : Fin 1), j = ix2 p u := ⟨j 0, j 1, eq_ix2 j⟩
  have hu : u = (0 : Fin 1) := Subsingleton.elim _ _
  subst hu
  refine (Cert.KernelIdeal.Blocks.cls_payload (iblk4 V c 0 t) (iblk4 V c 1 t) (iblk4 V c 2 t) p (0 : Fin 1)).trans ?_
  show _ = Cert.Sage.clsR (V c (Pipeline.arrRef spec4 0)) (V c (Pipeline.arrRef spec4 1)) (V c (Pipeline.arrRef spec4 2))
    (((cfg4.win 3).blk t).view.emb (ix2 p (0 : Fin 1)))
  rw [cls_emb3, Cert.Sage.clsR_apply]
  unfold Cert.Sage.clsAt
  have hh : ∀ k : Fin 64, iblk4 V c 0 t (ix2 p k) = V c (Pipeline.arrRef spec4 0) (ix2 (clsRow t p) k) :=
    fun k => cls_read0 V c t p k _ (cls_emb0 t p k)
  have hw : ∀ k : Fin 64, iblk4 V c 1 t (ix2 k (0 : Fin 1)) = V c (Pipeline.arrRef spec4 1) (ix2 k (0 : Fin 1)) :=
    fun k => cls_read1 V c t k (0 : Fin 1) _ (cls_emb1 t k (0 : Fin 1))
  have hb : iblk4 V c 2 t (ix2 (0 : Fin 1) (0 : Fin 1)) = V c (Pipeline.arrRef spec4 2) (ix2 (0 : Fin 1) (0 : Fin 1)) :=
    cls_read2 V c t (0 : Fin 1) (0 : Fin 1) _ (cls_emb2 t (0 : Fin 1) (0 : Fin 1))
  rw [hb]
  exact congrArg (fun s : EReal => Ideal.logistic (s + V c (Pipeline.arrRef spec4 2) (ix2 (0 : Fin 1) (0 : Fin 1))))
    (Finset.sum_congr rfl fun k _ => by rw [hh k, hw k])

/-- An index of the array is in point t's block iff each coordinate is in the block's range on its axis. -/
theorem cls_mem_blk (t : Fin cfg4.N) (i : S100000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v79).slice (win4_3.rect t)).set ↔ _
  rw [View.set_slice_whole, Rect.mem_set_unit]
  exact Iff.rfl

/-- Every row of the array is in some point's block: row r in block r / 5000. -/
theorem cls_cover (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  let t : Fin cfg4.N := ⟨(i 0).val / 5000, by rw [show cfg4.N = 20 from N_4]; omega⟩
  obtain ⟨-, -, -, -, -, -, e6, e7⟩ := cls_idx t
  have ht : t.val = (i 0).val / 5000 := rfl
  refine ⟨t, flush4_3 t, ?_⟩
  rw [cls_mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 1 ≤ (i 1).val ∧ (i 1).val < win4_3.index t (1 : Fin 2) * 1 + 1; omega

/-- After the classifier region the output array is the classifier of the arrays the region found. -/
theorem cls_array :
    (dat4 (F := Ideal) V c).arrAt 3 cfg4.N
      = Cert.Sage.clsR (V c (Pipeline.arrRef spec4 0)) (V c (Pipeline.arrRef spec4 1)) (V c (Pipeline.arrRef spec4 2)) :=
  (dat4 (F := Ideal) V c).arrAt_eq_of_cover 3 _ (fun t _ => cls_flushed V c t) cls_cover

end Cert.KernelIdeal.Arrays

end
-- ==== Proof.KernelValue.lean ====
/-
  The kernel program's result as a function of its argument arrays.

  Between the five dense stages the program computes, on whole arrays, the edge endpoints (two rows of the edge array),
  the inverse in-degree column, and before each layer the aggregated neighbour rows: the rows of the current features
  gathered at the edges' sources, added up at the edges' targets, and scaled by the inverse in-degree. Each of these is
  written here as a function of the argument arrays with the program's own operations in the program's own order. Then the contents of every buffer
  a later stage reads are followed from the launch through the host stretches and the five dense stages, and the
  result buffer is found to hold the network of Spec.lean applied to the argument arrays.
-/
import proofs.«122353_j15796889715042_1_alg».proof.Proof.Gen.KernelIdeal.Frame
import proofs.«122353_j15796889715042_1_alg».proof.Proof.Spec
import proofs.«122353_j15796889715042_1_alg».proof.Proof.EncArray
import proofs.«122353_j15796889715042_1_alg».proof.Proof.Layer1Array
import proofs.«122353_j15796889715042_1_alg».proof.Proof.Layer2Array
import proofs.«122353_j15796889715042_1_alg».proof.Proof.Layer3Array
import proofs.«122353_j15796889715042_1_alg».proof.Proof.ClsArray
import Idealize.ShloMosaic.Lib.ValueLayout
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

set_option quotPrecheck false in
/-- The contents of an array of 32-bit floats of shape `S`. -/
local notation "CF[" S "]" => (⟨S, .f32⟩ : BufTy).Contents (Elt Ideal)
set_option quotPrecheck false in
/-- The contents of an array of 32-bit integers of shape `S`. -/
local notation "CI[" S "]" => (⟨S, .i32⟩ : BufTy).Contents (Elt Ideal)
set_option quotPrecheck false in
/-- A TensorCore reference as a device buffer. -/
local notation "dr(" b ")" => (Proc.devRef (τ := τ) (sig := sig) .tc b)

/-! ## The host-side pieces -/

/-- The edges' sources: row 0 of the edge array, as a vector. -/
def src (e : CI[S2x1600000]) : CI[S1600000] :=
  shapeCast S1600000 (extractStridedSlice S1x1600000 ![0, 0] e slices_S2x1600000_S1x1600000_0_0) shapeCasts_S1x1600000_S1600000

/-- The edges' targets: row 1 of the edge array, as a vector. -/
def dst (e : CI[S2x1600000]) : CI[S1600000] :=
  shapeCast S1600000 (extractStridedSlice S1x1600000 ![1, 0] e slices_S2x1600000_S1x1600000_1_0) shapeCasts_S1x1600000_S1600000

/-- The in-degree of every node: a one added at each edge's target. -/
def deg (e : CI[S2x1600000]) : CF[S100000] :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 (dst e))
    (broadcastInDim S1600000 ![] bcast_S_S1600000 (constant (F := Ideal) S_ .f32 0x3F800000#32))

/-- The inverse in-degree as a column: one over the larger of the in-degree and one where the in-degree is positive, zero elsewhere. -/
def invDeg (e : CI[S2x1600000]) : CF[S100000x1] :=
  broadcastInDim S100000x1 ![0] bcast_S100000_S100000x1_0
    (select (cmpf .ogt (deg e) (broadcastInDim S100000 ![] bcast_S_S100000 (constant (F := Ideal) S_ .f32 0x00000000#32)))
      (Host.divf (broadcastInDim S100000 ![] bcast_S_S100000 (constant (F := Ideal) S_ .f32 0x3F800000#32))
        (maximumf (deg e) (broadcastInDim S100000 ![] bcast_S_S100000 (constant (F := Ideal) S_ .f32 0x3F800000#32))))
      (broadcastInDim S100000 ![] bcast_S_S100000 (id (constant (F := Ideal) S_ .f32 0x00000000#32))))

/-- The aggregated neighbour rows of the current rows `h`: the rows of `h` gathered at the edges' sources (a negative
    index counted from the end), added up at the edges' targets from zero, and scaled by the inverse in-degree. -/
def agg (e : CI[S2x1600000]) (h : CF[S100000x64]) : CF[S100000x64] :=
  mulf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (dst e))
      (Host.gather gather_S100000x64_S1600000x1_S1600000x64_1_0_n_n_0_1_164 h
        (broadcastInDim S1600000x1 ![0] bcast_S1600000_S1600000x1_0
          (select (cmpi .slt (src e) (broadcastInDim S1600000 ![] bcast_S_S1600000 (constantI S_ 32 0#32)))
            (addi (src e) (broadcastInDim S1600000 ![] bcast_S_S1600000 (constantI S_ 32 100000#32)))
            (src e)))))
    (broadcastInDim S100000x64 ![0, 1] bcast_S100000x1_S100000x64_0_1 (invDeg e))

/-- Layer `k`'s left weights: slab `k` of the stacked left weights, as a matrix. -/
def wl0 (w : CF[S3x64x64]) : CF[S64x64] :=
  shapeCast S64x64 (extractStridedSlice S1x64x64 ![0, 0, 0] w slices_S3x64x64_S1x64x64_0_0_0) shapeCasts_S1x64x64_S64x64
def wl1 (w : CF[S3x64x64]) : CF[S64x64] :=
  shapeCast S64x64 (extractStridedSlice S1x64x64 ![1, 0, 0] w slices_S3x64x64_S1x64x64_1_0_0) shapeCasts_S1x64x64_S64x64
def wl2 (w : CF[S3x64x64]) : CF[S64x64] :=
  shapeCast S64x64 (extractStridedSlice S1x64x64 ![2, 0, 0] w slices_S3x64x64_S1x64x64_2_0_0) shapeCasts_S1x64x64_S64x64

/-- Layer `k`'s right weights: slab `k` of the stacked right weights, as a matrix. -/
def wr0 (w : CF[S3x64x64]) : CF[S64x64] :=
  shapeCast S64x64 (extractStridedSlice S1x64x64 ![0, 0, 0] w slices_S3x64x64_S1x64x64_0_0_0) shapeCasts_S1x64x64_S64x64
def wr1 (w : CF[S3x64x64]) : CF[S64x64] :=
  shapeCast S64x64 (extractStridedSlice S1x64x64 ![1, 0, 0] w slices_S3x64x64_S1x64x64_1_0_0) shapeCasts_S1x64x64_S64x64
def wr2 (w : CF[S3x64x64]) : CF[S64x64] :=
  shapeCast S64x64 (extractStridedSlice S1x64x64 ![2, 0, 0] w slices_S3x64x64_S1x64x64_2_0_0) shapeCasts_S1x64x64_S64x64

/-- Layer `k`'s bias: row `k` of the stacked biases, as a vector. -/
def bl0 (b : CF[S3x64]) : CF[S64] :=
  shapeCast S64 (extractStridedSlice S1x64 ![0, 0] b slices_S3x64_S1x64_0_0) shapeCasts_S1x64_S64
def bl1 (b : CF[S3x64]) : CF[S64] :=
  shapeCast S64 (extractStridedSlice S1x64 ![1, 0] b slices_S3x64_S1x64_1_0) shapeCasts_S1x64_S64
def bl2 (b : CF[S3x64]) : CF[S64] :=
  shapeCast S64 (extractStridedSlice S1x64 ![2, 0] b slices_S3x64_S1x64_2_0) shapeCasts_S1x64_S64

/-! ## The host stretches, from any buffer contents `X` -/

section Stretches

variable (X : Valuation τ sig (Elt Ideal))

/-! ### Before the encoder: the edge endpoints, the inverse in-degree, the encoder's bias as a row -/

theorem pre_v1 : StableHlo.after hostOps0_2 (StableHlo.after hostOps0_1 (StableHlo.after hostOps0 X)) dr(main_v1)
    = src (X dr(main_arg1)) := by
  unfold hostOps0_2 hostOps0_1 hostOps0; after_results_simp <;> rfl

theorem pre_v3 : StableHlo.after hostOps0_2 (StableHlo.after hostOps0_1 (StableHlo.after hostOps0 X)) dr(main_v3)
    = dst (X dr(main_arg1)) := by
  unfold hostOps0_2 hostOps0_1 hostOps0; after_results_simp <;> rfl

theorem s0_v9 : StableHlo.after hostOps0 X dr(main_v9)
    = cmpf .ogt (deg (X dr(main_arg1))) (broadcastInDim S100000 ![] bcast_S_S100000 (constant (F := Ideal) S_ .f32 0x00000000#32)) := by
  unfold hostOps0; after_results_simp <;> rfl

theorem s0_v13 : StableHlo.after hostOps0 X dr(main_v13)
    = Host.divf (broadcastInDim S100000 ![] bcast_S_S100000 (constant (F := Ideal) S_ .f32 0x3F800000#32))
        (maximumf (deg (X dr(main_arg1))) (broadcastInDim S100000 ![] bcast_S_S100000 (constant (F := Ideal) S_ .f32 0x3F800000#32))) := by
  unfold hostOps0; after_results_simp <;> rfl

theorem s0_cst4 : StableHlo.after hostOps0 X dr(main_cst_4) = constant (F := Ideal) S_ .f32 0x00000000#32 := by
  unfold hostOps0; after_results_simp

theorem s01_v14 : StableHlo.after hostOps0_1 X dr(main_v14)
    = select (X dr(main_v9)) (X dr(main_v13)) (broadcastInDim S100000 ![] bcast_S_S100000 (id (X dr(main_cst_4)))) := by
  unfold hostOps0_1; after_results_simp <;> rfl

theorem s02_v15 : StableHlo.after hostOps0_2 X dr(main_v15)
    = broadcastInDim S100000x1 ![0] bcast_S100000_S100000x1_0 (X dr(main_v14)) := by
  unfold hostOps0_2; after_results_simp

theorem pre_v15 : StableHlo.after hostOps0_2 (StableHlo.after hostOps0_1 (StableHlo.after hostOps0 X)) dr(main_v15)
    = invDeg (X dr(main_arg1)) := by
  rw [s02_v15, s01_v14, s0_v9, s0_v13, s0_cst4]; rfl

theorem pre_v16 : StableHlo.after hostOps0_2 (StableHlo.after hostOps0_1 (StableHlo.after hostOps0 X)) dr(main_v16)
    = shapeCast S1x64 (X dr(main_arg3)) shapeCasts_S64_S1x64 := by
  unfold hostOps0_2 hostOps0_1 hostOps0; after_results_simp <;> rfl

end Stretches

section Stretches

variable (X : Valuation τ sig (Elt Ideal))

/-- The arguments the encoder reads, and those later stretches read, are not written before the encoder. -/
theorem pre_keep (r : Ref sig .tc) (hr : r = main_arg0 ∨ r = main_arg2 ∨ r = main_arg4 ∨ r = main_arg5 ∨ r = main_arg6 ∨ r = main_arg7 ∨ r = main_arg8) :
    StableHlo.after hostOps0_2 (StableHlo.after hostOps0_1 (StableHlo.after hostOps0 X)) dr(r) = X dr(r) := by
  rcases hr with h | h | h | h | h | h | h <;> subst h <;> (unfold hostOps0_2 hostOps0_1 hostOps0; after_results_simp)

/-! ### Before layer 1: the aggregated rows, the layer's weights and its bias as a row -/

theorem ops1_agg (e : CI[S2x1600000]) (h1 : X dr(main_v1) = src e) (h3 : X dr(main_v3) = dst e) (h15 : X dr(main_v15) = invDeg e) :
    StableHlo.after hostOps1 X dr(main_v29) = agg e (X dr(main_v17)) := by
  unfold hostOps1; after_results_simp; rw [h1, h3, h15]; rfl

theorem ops1_wl : StableHlo.after hostOps1 X dr(main_v31) = wl0 (X dr(main_arg4)) := by
  unfold hostOps1; after_results_simp <;> rfl

theorem ops1_wr : StableHlo.after hostOps1 X dr(main_v33) = wr0 (X dr(main_arg6)) := by
  unfold hostOps1; after_results_simp <;> rfl

theorem ops1_brow : StableHlo.after hostOps1 X dr(main_v36) = shapeCast S1x64 (bl0 (X dr(main_arg5))) shapeCasts_S64_S1x64 := by
  unfold hostOps1; after_results_simp <;> rfl

theorem ops1_keep (r : Ref sig .tc) (hr : r = main_v17 ∨ r = main_v1 ∨ r = main_v3 ∨ r = main_v15 ∨ r = main_arg4 ∨ r = main_arg5 ∨ r = main_arg6 ∨ r = main_arg7 ∨ r = main_arg8) :
    StableHlo.after hostOps1 X dr(r) = X dr(r) := by
  rcases hr with h | h | h | h | h | h | h | h | h <;> subst h <;> (unfold hostOps1; after_results_simp)

/-! ### Before layer 2: the aggregated rows, the layer's weights and its bias as a row -/

theorem ops2_agg (e : CI[S2x1600000]) (h1 : X dr(main_v1) = src e) (h3 : X dr(main_v3) = dst e) (h15 : X dr(main_v15) = invDeg e) :
    StableHlo.after hostOps2 X dr(main_v49) = agg e (X dr(main_v37)) := by
  unfold hostOps2; after_results_simp; rw [h1, h3, h15]; rfl

theorem ops2_wl : StableHlo.after hostOps2 X dr(main_v51) = wl1 (X dr(main_arg4)) := by
  unfold hostOps2; after_results_simp <;> rfl

theorem ops2_wr : StableHlo.after hostOps2 X dr(main_v53) = wr1 (X dr(main_arg6)) := by
  unfold hostOps2; after_results_simp <;> rfl

theorem ops2_brow : StableHlo.after hostOps2 X dr(main_v56) = shapeCast S1x64 (bl1 (X dr(main_arg5))) shapeCasts_S64_S1x64 := by
  unfold hostOps2; after_results_simp <;> rfl

theorem ops2_keep (r : Ref sig .tc) (hr : r = main_v37 ∨ r = main_v1 ∨ r = main_v3 ∨ r = main_v15 ∨ r = main_arg4 ∨ r = main_arg5 ∨ r = main_arg6 ∨ r = main_arg7 ∨ r = main_arg8) :
    StableHlo.after hostOps2 X dr(r) = X dr(r) := by
  rcases hr with h | h | h | h | h | h | h | h | h <;> subst h <;> (unfold hostOps2; after_results_simp)

/-! ### Before layer 3: the aggregated rows, the layer's weights and its bias as a row -/

theorem ops3_agg (e : CI[S2x1600000]) (h1 : X dr(main_v1) = src e) (h3 : X dr(main_v3) = dst e) (h15 : X dr(main_v15) = invDeg e) :
    StableHlo.after hostOps3 X dr(main_v69) = agg e (X dr(main_v57)) := by
  unfold hostOps3; after_results_simp; rw [h1, h3, h15]; rfl

theorem ops3_wl : StableHlo.after hostOps3 X dr(main_v71) = wl2 (X dr(main_arg4)) := by
  unfold hostOps3; after_results_simp <;> rfl

theorem ops3_wr : StableHlo.after hostOps3 X dr(main_v73) = wr2 (X dr(main_arg6)) := by
  unfold hostOps3; after_results_simp <;> rfl

theorem ops3_brow : StableHlo.after hostOps3 X dr(main_v76) = shapeCast S1x64 (bl2 (X dr(main_arg5))) shapeCasts_S64_S1x64 := by
  unfold hostOps3; after_results_simp <;> rfl

theorem ops3_keep (r : Ref sig .tc) (hr : r = main_v57 ∨ r = main_arg7 ∨ r = main_arg8) :
    StableHlo.after hostOps3 X dr(r) = X dr(r) := by
  rcases hr with h | h | h <;> subst h <;> (unfold hostOps3; after_results_simp)

/-! ### Before the classifier: its bias as a 1 x 1 array; after it: the result as a vector -/

theorem ops4_v78 : StableHlo.after hostOps4 X dr(main_v78) = shapeCast S1x1 (X dr(main_arg8)) shapeCasts_S1_S1x1 := by
  unfold hostOps4; after_results_simp <;> rfl

theorem ops4_keep (r : Ref sig .tc) (hr : r = main_v77 ∨ r = main_arg7) :
    StableHlo.after hostOps4 X dr(r) = X dr(r) := by
  rcases hr with h | h <;> subst h <;> (unfold hostOps4; after_results_simp)

theorem ops5_v80 : StableHlo.after hostOps5 X dr(main_v80) = shapeCast S100000 (X dr(main_v79)) shapeCasts_S100000x1_S100000 := by
  unfold hostOps5; after_results_simp <;> rfl

end Stretches

/-! ## The buffers' contents at the boundaries of the run -/

section Run

variable (m : (ℓ : Loc nD τ sig) → Buf (Elt Ideal) ℓ) (ρ : Dev nD → PrngReg) (c : Dev nD)

/-- The features after the encoder. -/
def f0 : Cert.Sage.H :=
  Cert.Sage.enc (m ((c.tc : Thread nD τ).loc main_arg0)) (m ((c.tc : Thread nD τ).loc main_arg2)) (m ((c.tc : Thread nD τ).loc main_arg3))
/-- The features after layer 1. -/
def f1 : Cert.Sage.H :=
  Cert.Sage.layer (agg (m ((c.tc : Thread nD τ).loc main_arg1)) (f0 m c)) (f0 m c) (wl0 (m ((c.tc : Thread nD τ).loc main_arg4))) (wr0 (m ((c.tc : Thread nD τ).loc main_arg6))) (bl0 (m ((c.tc : Thread nD τ).loc main_arg5)))
/-- The features after layer 2. -/
def f2 : Cert.Sage.H :=
  Cert.Sage.layer (agg (m ((c.tc : Thread nD τ).loc main_arg1)) (f1 m c)) (f1 m c) (wl1 (m ((c.tc : Thread nD τ).loc main_arg4))) (wr1 (m ((c.tc : Thread nD τ).loc main_arg6))) (bl1 (m ((c.tc : Thread nD τ).loc main_arg5)))
/-- The features after layer 3. -/
def f3 : Cert.Sage.H :=
  Cert.Sage.layer (agg (m ((c.tc : Thread nD τ).loc main_arg1)) (f2 m c)) (f2 m c) (wl2 (m ((c.tc : Thread nD τ).loc main_arg4))) (wr2 (m ((c.tc : Thread nD τ).loc main_arg6))) (bl2 (m ((c.tc : Thread nD τ).loc main_arg5)))

/-! ### At the encoder's entry -/

theorem W3_v1 : W3 (F := Ideal) m ρ c dr(main_v1) = src (m ((c.tc : Thread nD τ).loc main_arg1)) := pre_v1 (W0 m ρ c)
theorem W3_v3 : W3 (F := Ideal) m ρ c dr(main_v3) = dst (m ((c.tc : Thread nD τ).loc main_arg1)) := pre_v3 (W0 m ρ c)
theorem W3_v15 : W3 (F := Ideal) m ρ c dr(main_v15) = invDeg (m ((c.tc : Thread nD τ).loc main_arg1)) := pre_v15 (W0 m ρ c)
theorem W3_v16 : W3 (F := Ideal) m ρ c dr(main_v16) = shapeCast S1x64 (m ((c.tc : Thread nD τ).loc main_arg3)) shapeCasts_S64_S1x64 := pre_v16 (W0 m ρ c)
theorem W3_arg0 : W3 (F := Ideal) m ρ c dr(main_arg0) = (m ((c.tc : Thread nD τ).loc main_arg0)) := pre_keep (W0 m ρ c) main_arg0 (by decide)
theorem W3_arg2 : W3 (F := Ideal) m ρ c dr(main_arg2) = (m ((c.tc : Thread nD τ).loc main_arg2)) := pre_keep (W0 m ρ c) main_arg2 (by decide)
theorem W3_arg4 : W3 (F := Ideal) m ρ c dr(main_arg4) = (m ((c.tc : Thread nD τ).loc main_arg4)) := pre_keep (W0 m ρ c) main_arg4 (by decide)
theorem W3_arg5 : W3 (F := Ideal) m ρ c dr(main_arg5) = (m ((c.tc : Thread nD τ).loc main_arg5)) := pre_keep (W0 m ρ c) main_arg5 (by decide)
theorem W3_arg6 : W3 (F := Ideal) m ρ c dr(main_arg6) = (m ((c.tc : Thread nD τ).loc main_arg6)) := pre_keep (W0 m ρ c) main_arg6 (by decide)
theorem W3_arg7 : W3 (F := Ideal) m ρ c dr(main_arg7) = (m ((c.tc : Thread nD τ).loc main_arg7)) := pre_keep (W0 m ρ c) main_arg7 (by decide)
theorem W3_arg8 : W3 (F := Ideal) m ρ c dr(main_arg8) = (m ((c.tc : Thread nD τ).loc main_arg8)) := pre_keep (W0 m ρ c) main_arg8 (by decide)

/-! ### At the encoder's exit -/

set_option maxHeartbeats 1000000 in
theorem W4_v17 : W4 (F := Ideal) m ρ c dr(main_v17) = f0 m c :=
  calc W4 (F := Ideal) m ρ c dr(main_v17)
      = (dat0 (V3 m ρ) c).arrAt 3 cfg0.N := W4_arr m ρ c 3
    _ = Cert.Sage.encR (V3 m ρ c (Pipeline.arrRef spec0 0)) (V3 m ρ c (Pipeline.arrRef spec0 1)) (V3 m ρ c (Pipeline.arrRef spec0 2)) :=
        Arrays.enc_array (V3 m ρ) c
    _ = Cert.Sage.encR (m ((c.tc : Thread nD τ).loc main_arg0)) (m ((c.tc : Thread nD τ).loc main_arg2)) (shapeCast S1x64 (m ((c.tc : Thread nD τ).loc main_arg3)) shapeCasts_S64_S1x64) := by
        have e0 : V3 (F := Ideal) m ρ c (Pipeline.arrRef spec0 0) = (m ((c.tc : Thread nD τ).loc main_arg0)) := W3_arg0 m ρ c
        have e1 : V3 (F := Ideal) m ρ c (Pipeline.arrRef spec0 1) = (m ((c.tc : Thread nD τ).loc main_arg2)) := W3_arg2 m ρ c
        have e2 : V3 (F := Ideal) m ρ c (Pipeline.arrRef spec0 2) = shapeCast S1x64 (m ((c.tc : Thread nD τ).loc main_arg3)) shapeCasts_S64_S1x64 := W3_v16 m ρ c
        rw [e0, e1, e2]
    _ = f0 m c := Cert.Sage.encR_eq_enc _ _ _ _ (fun q => shapeCast_a_1a_apply _ _ 0 q)
theorem W4_v1 : W4 (F := Ideal) m ρ c dr(main_v1) = src (m ((c.tc : Thread nD τ).loc main_arg1)) :=
  (W4_of_ne m ρ c main_v1 (by decide)).trans (W3_v1 m ρ c)
theorem W4_v3 : W4 (F := Ideal) m ρ c dr(main_v3) = dst (m ((c.tc : Thread nD τ).loc main_arg1)) :=
  (W4_of_ne m ρ c main_v3 (by decide)).trans (W3_v3 m ρ c)
theorem W4_v15 : W4 (F := Ideal) m ρ c dr(main_v15) = invDeg (m ((c.tc : Thread nD τ).loc main_arg1)) :=
  (W4_of_ne m ρ c main_v15 (by decide)).trans (W3_v15 m ρ c)
theorem W4_arg4 : W4 (F := Ideal) m ρ c dr(main_arg4) = (m ((c.tc : Thread nD τ).loc main_arg4)) :=
  (W4_of_ne m ρ c main_arg4 (by decide)).trans (W3_arg4 m ρ c)
theorem W4_arg5 : W4 (F := Ideal) m ρ c dr(main_arg5) = (m ((c.tc : Thread nD τ).loc main_arg5)) :=
  (W4_of_ne m ρ c main_arg5 (by decide)).trans (W3_arg5 m ρ c)
theorem W4_arg6 : W4 (F := Ideal) m ρ c dr(main_arg6) = (m ((c.tc : Thread nD τ).loc main_arg6)) :=
  (W4_of_ne m ρ c main_arg6 (by decide)).trans (W3_arg6 m ρ c)
theorem W4_arg7 : W4 (F := Ideal) m ρ c dr(main_arg7) = (m ((c.tc : Thread nD τ).loc main_arg7)) :=
  (W4_of_ne m ρ c main_arg7 (by decide)).trans (W3_arg7 m ρ c)
theorem W4_arg8 : W4 (F := Ideal) m ρ c dr(main_arg8) = (m ((c.tc : Thread nD τ).loc main_arg8)) :=
  (W4_of_ne m ρ c main_arg8 (by decide)).trans (W3_arg8 m ρ c)

/-! ### At layer 1's entry -/

theorem W5_v17 : W5 (F := Ideal) m ρ c dr(main_v17) = f0 m c :=
  (ops1_keep (W4 m ρ c) main_v17 (by decide)).trans (W4_v17 m ρ c)
theorem W5_v29 : W5 (F := Ideal) m ρ c dr(main_v29) = agg (m ((c.tc : Thread nD τ).loc main_arg1)) (f0 m c) :=
  (ops1_agg (W4 m ρ c) (m ((c.tc : Thread nD τ).loc main_arg1)) (W4_v1 m ρ c) (W4_v3 m ρ c) (W4_v15 m ρ c)).trans
    (congrArg (agg (m ((c.tc : Thread nD τ).loc main_arg1))) (W4_v17 m ρ c))
theorem W5_v31 : W5 (F := Ideal) m ρ c dr(main_v31) = wl0 (m ((c.tc : Thread nD τ).loc main_arg4)) :=
  (ops1_wl (W4 m ρ c)).trans (congrArg wl0 (W4_arg4 m ρ c))
theorem W5_v33 : W5 (F := Ideal) m ρ c dr(main_v33) = wr0 (m ((c.tc : Thread nD τ).loc main_arg6)) :=
  (ops1_wr (W4 m ρ c)).trans (congrArg wr0 (W4_arg6 m ρ c))
theorem W5_v36 : W5 (F := Ideal) m ρ c dr(main_v36) = shapeCast S1x64 (bl0 (m ((c.tc : Thread nD τ).loc main_arg5))) shapeCasts_S64_S1x64 :=
  (ops1_brow (W4 m ρ c)).trans (congrArg (fun b => shapeCast S1x64 (bl0 b) shapeCasts_S64_S1x64) (W4_arg5 m ρ c))
theorem W5_v1 : W5 (F := Ideal) m ρ c dr(main_v1) = src (m ((c.tc : Thread nD τ).loc main_arg1)) :=
  (ops1_keep (W4 m ρ c) main_v1 (by decide)).trans (W4_v1 m ρ c)
theorem W5_v3 : W5 (F := Ideal) m ρ c dr(main_v3) = dst (m ((c.tc : Thread nD τ).loc main_arg1)) :=
  (ops1_keep (W4 m ρ c) main_v3 (by decide)).trans (W4_v3 m ρ c)
theorem W5_v15 : W5 (F := Ideal) m ρ c dr(main_v15) = invDeg (m ((c.tc : Thread nD τ).loc main_arg1)) :=
  (ops1_keep (W4 m ρ c) main_v15 (by decide)).trans (W4_v15 m ρ c)
theorem W5_arg4 : W5 (F := Ideal) m ρ c dr(main_arg4) = (m ((c.tc : Thread nD τ).loc main_arg4)) :=
  (ops1_keep (W4 m ρ c) main_arg4 (by decide)).trans (W4_arg4 m ρ c)
theorem W5_arg5 : W5 (F := Ideal) m ρ c dr(main_arg5) = (m ((c.tc : Thread nD τ).loc main_arg5)) :=
  (ops1_keep (W4 m ρ c) main_arg5 (by decide)).trans (W4_arg5 m ρ c)
theorem W5_arg6 : W5 (F := Ideal) m ρ c dr(main_arg6) = (m ((c.tc : Thread nD τ).loc main_arg6)) :=
  (ops1_keep (W4 m ρ c) main_arg6 (by decide)).trans (W4_arg6 m ρ c)
theorem W5_arg7 : W5 (F := Ideal) m ρ c dr(main_arg7) = (m ((c.tc : Thread nD τ).loc main_arg7)) :=
  (ops1_keep (W4 m ρ c) main_arg7 (by decide)).trans (W4_arg7 m ρ c)
theorem W5_arg8 : W5 (F := Ideal) m ρ c dr(main_arg8) = (m ((c.tc : Thread nD τ).loc main_arg8)) :=
  (ops1_keep (W4 m ρ c) main_arg8 (by decide)).trans (W4_arg8 m ρ c)

/-! ### At layer 1's exit -/

set_option maxHeartbeats 1000000 in
theorem W6_v37 : W6 (F := Ideal) m ρ c dr(main_v37) = f1 m c :=
  calc W6 (F := Ideal) m ρ c dr(main_v37)
      = (dat1 (V5 m ρ) c).arrAt 5 cfg1.N := W6_arr m ρ c 5
    _ = Cert.Sage.layerR (V5 m ρ c (Pipeline.arrRef spec1 0)) (V5 m ρ c (Pipeline.arrRef spec1 1)) (V5 m ρ c (Pipeline.arrRef spec1 2))
          (V5 m ρ c (Pipeline.arrRef spec1 3)) (V5 m ρ c (Pipeline.arrRef spec1 4)) :=
        Arrays.layer1_array (V5 m ρ) c
    _ = Cert.Sage.layerR (agg (m ((c.tc : Thread nD τ).loc main_arg1)) (f0 m c)) (f0 m c) (wl0 (m ((c.tc : Thread nD τ).loc main_arg4))) (wr0 (m ((c.tc : Thread nD τ).loc main_arg6))) (shapeCast S1x64 (bl0 (m ((c.tc : Thread nD τ).loc main_arg5))) shapeCasts_S64_S1x64) := by
        have e0 : V5 (F := Ideal) m ρ c (Pipeline.arrRef spec1 0) = agg (m ((c.tc : Thread nD τ).loc main_arg1)) (f0 m c) := W5_v29 m ρ c
        have e1 : V5 (F := Ideal) m ρ c (Pipeline.arrRef spec1 1) = f0 m c := W5_v17 m ρ c
        have e2 : V5 (F := Ideal) m ρ c (Pipeline.arrRef spec1 2) = wl0 (m ((c.tc : Thread nD τ).loc main_arg4)) := W5_v31 m ρ c
        have e3 : V5 (F := Ideal) m ρ c (Pipeline.arrRef spec1 3) = wr0 (m ((c.tc : Thread nD τ).loc main_arg6)) := W5_v33 m ρ c
        have e4 : V5 (F := Ideal) m ρ c (Pipeline.arrRef spec1 4) = shapeCast S1x64 (bl0 (m ((c.tc : Thread nD τ).loc main_arg5))) shapeCasts_S64_S1x64 := W5_v36 m ρ c
        rw [e0, e1, e2, e3, e4]
    _ = f1 m c := Cert.Sage.layerR_eq_layer _ _ _ _ _ _ (fun q => shapeCast_a_1a_apply _ _ 0 q)
theorem W6_v1 : W6 (F := Ideal) m ρ c dr(main_v1) = src (m ((c.tc : Thread nD τ).loc main_arg1)) :=
  (W6_of_ne m ρ c main_v1 (by decide)).trans (W5_v1 m ρ c)
theorem W6_v3 : W6 (F := Ideal) m ρ c dr(main_v3) = dst (m ((c.tc : Thread nD τ).loc main_arg1)) :=
  (W6_of_ne m ρ c main_v3 (by decide)).trans (W5_v3 m ρ c)
theorem W6_v15 : W6 (F := Ideal) m ρ c dr(main_v15) = invDeg (m ((c.tc : Thread nD τ).loc main_arg1)) :=
  (W6_of_ne m ρ c main_v15 (by decide)).trans (W5_v15 m ρ c)
theorem W6_arg4 : W6 (F := Ideal) m ρ c dr(main_arg4) = (m ((c.tc : Thread nD τ).loc main_arg4)) :=
  (W6_of_ne m ρ c main_arg4 (by decide)).trans (W5_arg4 m ρ c)
theorem W6_arg5 : W6 (F := Ideal) m ρ c dr(main_arg5) = (m ((c.tc : Thread nD τ).loc main_arg5)) :=
  (W6_of_ne m ρ c main_arg5 (by decide)).trans (W5_arg5 m ρ c)
theorem W6_arg6 : W6 (F := Ideal) m ρ c dr(main_arg6) = (m ((c.tc : Thread nD τ).loc main_arg6)) :=
  (W6_of_ne m ρ c main_arg6 (by decide)).trans (W5_arg6 m ρ c)
theorem W6_arg7 : W6 (F := Ideal) m ρ c dr(main_arg7) = (m ((c.tc : Thread nD τ).loc main_arg7)) :=
  (W6_of_ne m ρ c main_arg7 (by decide)).trans (W5_arg7 m ρ c)
theorem W6_arg8 : W6 (F := Ideal) m ρ c dr(main_arg8) = (m ((c.tc : Thread nD τ).loc main_arg8)) :=
  (W6_of_ne m ρ c main_arg8 (by decide)).trans (W5_arg8 m ρ c)

/-! ### At layer 2's entry -/

theorem W7_v37 : W7 (F := Ideal) m ρ c dr(main_v37) = f1 m c :=
  (ops2_keep (W6 m ρ c) main_v37 (by decide)).trans (W6_v37 m ρ c)
theorem W7_v49 : W7 (F := Ideal) m ρ c dr(main_v49) = agg (m ((c.tc : Thread nD τ).loc main_arg1)) (f1 m c) :=
  (ops2_agg (W6 m ρ c) (m ((c.tc : Thread nD τ).loc main_arg1)) (W6_v1 m ρ c) (W6_v3 m ρ c) (W6_v15 m ρ c)).trans
    (congrArg (agg (m ((c.tc : Thread nD τ).loc main_arg1))) (W6_v37 m ρ c))
theorem W7_v51 : W7 (F := Ideal) m ρ c dr(main_v51) = wl1 (m ((c.tc : Thread nD τ).loc main_arg4)) :=
  (ops2_wl (W6 m ρ c)).trans (congrArg wl1 (W6_arg4 m ρ c))
theorem W7_v53 : W7 (F := Ideal) m ρ c dr(main_v53) = wr1 (m ((c.tc : Thread nD τ).loc main_arg6)) :=
  (ops2_wr (W6 m ρ c)).trans (congrArg wr1 (W6_arg6 m ρ c))
theorem W7_v56 : W7 (F := Ideal) m ρ c dr(main_v56) = shapeCast S1x64 (bl1 (m ((c.tc : Thread nD τ).loc main_arg5))) shapeCasts_S64_S1x64 :=
  (ops2_brow (W6 m ρ c)).trans (congrArg (fun b => shapeCast S1x64 (bl1 b) shapeCasts_S64_S1x64) (W6_arg5 m ρ c))
theorem W7_v1 : W7 (F := Ideal) m ρ c dr(main_v1) = src (m ((c.tc : Thread nD τ).loc main_arg1)) :=
  (ops2_keep (W6 m ρ c) main_v1 (by decide)).trans (W6_v1 m ρ c)
theorem W7_v3 : W7 (F := Ideal) m ρ c dr(main_v3) = dst (m ((c.tc : Thread nD τ).loc main_arg1)) :=
  (ops2_keep (W6 m ρ c) main_v3 (by decide)).trans (W6_v3 m ρ c)
theorem W7_v15 : W7 (F := Ideal) m ρ c dr(main_v15) = invDeg (m ((c.tc : Thread nD τ).loc main_arg1)) :=
  (ops2_keep (W6 m ρ c) main_v15 (by decide)).trans (W6_v15 m ρ c)
theorem W7_arg4 : W7 (F := Ideal) m ρ c dr(main_arg4) = (m ((c.tc : Thread nD τ).loc main_arg4)) :=
  (ops2_keep (W6 m ρ c) main_arg4 (by decide)).trans (W6_arg4 m ρ c)
theorem W7_arg5 : W7 (F := Ideal) m ρ c dr(main_arg5) = (m ((c.tc : Thread nD τ).loc main_arg5)) :=
  (ops2_keep (W6 m ρ c) main_arg5 (by decide)).trans (W6_arg5 m ρ c)
theorem W7_arg6 : W7 (F := Ideal) m ρ c dr(main_arg6) = (m ((c.tc : Thread nD τ).loc main_arg6)) :=
  (ops2_keep (W6 m ρ c) main_arg6 (by decide)).trans (W6_arg6 m ρ c)
theorem W7_arg7 : W7 (F := Ideal) m ρ c dr(main_arg7) = (m ((c.tc : Thread nD τ).loc main_arg7)) :=
  (ops2_keep (W6 m ρ c) main_arg7 (by decide)).trans (W6_arg7 m ρ c)
theorem W7_arg8 : W7 (F := Ideal) m ρ c dr(main_arg8) = (m ((c.tc : Thread nD τ).loc main_arg8)) :=
  (ops2_keep (W6 m ρ c) main_arg8 (by decide)).trans (W6_arg8 m ρ c)

/-! ### At layer 2's exit -/

set_option maxHeartbeats 1000000 in
theorem W8_v57 : W8 (F := Ideal) m ρ c dr(main_v57) = f2 m c :=
  calc W8 (F := Ideal) m ρ c dr(main_v57)
      = (dat2 (V7 m ρ) c).arrAt 5 cfg2.N := W8_arr m ρ c 5
    _ = Cert.Sage.layerR (V7 m ρ c (Pipeline.arrRef spec2 0)) (V7 m ρ c (Pipeline.arrRef spec2 1)) (V7 m ρ c (Pipeline.arrRef spec2 2))
          (V7 m ρ c (Pipeline.arrRef spec2 3)) (V7 m ρ c (Pipeline.arrRef spec2 4)) :=
        Arrays.layer2_array (V7 m ρ) c
    _ = Cert.Sage.layerR (agg (m ((c.tc : Thread nD τ).loc main_arg1)) (f1 m c)) (f1 m c) (wl1 (m ((c.tc : Thread nD τ).loc main_arg4))) (wr1 (m ((c.tc : Thread nD τ).loc main_arg6))) (shapeCast S1x64 (bl1 (m ((c.tc : Thread nD τ).loc main_arg5))) shapeCasts_S64_S1x64) := by
        have e0 : V7 (F := Ideal) m ρ c (Pipeline.arrRef spec2 0) = agg (m ((c.tc : Thread nD τ).loc main_arg1)) (f1 m c) := W7_v49 m ρ c
        have e1 : V7 (F := Ideal) m ρ c (Pipeline.arrRef spec2 1) = f1 m c := W7_v37 m ρ c
        have e2 : V7 (F := Ideal) m ρ c (Pipeline.arrRef spec2 2) = wl1 (m ((c.tc : Thread nD τ).loc main_arg4)) := W7_v51 m ρ c
        have e3 : V7 (F := Ideal) m ρ c (Pipeline.arrRef spec2 3) = wr1 (m ((c.tc : Thread nD τ).loc main_arg6)) := W7_v53 m ρ c
        have e4 : V7 (F := Ideal) m ρ c (Pipeline.arrRef spec2 4) = shapeCast S1x64 (bl1 (m ((c.tc : Thread nD τ).loc main_arg5))) shapeCasts_S64_S1x64 := W7_v56 m ρ c
        rw [e0, e1, e2, e3, e4]
    _ = f2 m c := Cert.Sage.layerR_eq_layer _ _ _ _ _ _ (fun q => shapeCast_a_1a_apply _ _ 0 q)
theorem W8_v1 : W8 (F := Ideal) m ρ c dr(main_v1) = src (m ((c.tc : Thread nD τ).loc main_arg1)) :=
  (W8_of_ne m ρ c main_v1 (by decide)).trans (W7_v1 m ρ c)
theorem W8_v3 : W8 (F := Ideal) m ρ c dr(main_v3) = dst (m ((c.tc : Thread nD τ).loc main_arg1)) :=
  (W8_of_ne m ρ c main_v3 (by decide)).trans (W7_v3 m ρ c)
theorem W8_v15 : W8 (F := Ideal) m ρ c dr(main_v15) = invDeg (m ((c.tc : Thread nD τ).loc main_arg1)) :=
  (W8_of_ne m ρ c main_v15 (by decide)).trans (W7_v15 m ρ c)
theorem W8_arg4 : W8 (F := Ideal) m ρ c dr(main_arg4) = (m ((c.tc : Thread nD τ).loc main_arg4)) :=
  (W8_of_ne m ρ c main_arg4 (by decide)).trans (W7_arg4 m ρ c)
theorem W8_arg5 : W8 (F := Ideal) m ρ c dr(main_arg5) = (m ((c.tc : Thread nD τ).loc main_arg5)) :=
  (W8_of_ne m ρ c main_arg5 (by decide)).trans (W7_arg5 m ρ c)
theorem W8_arg6 : W8 (F := Ideal) m ρ c dr(main_arg6) = (m ((c.tc : Thread nD τ).loc main_arg6)) :=
  (W8_of_ne m ρ c main_arg6 (by decide)).trans (W7_arg6 m ρ c)
theorem W8_arg7 : W8 (F := Ideal) m ρ c dr(main_arg7) = (m ((c.tc : Thread nD τ).loc main_arg7)) :=
  (W8_of_ne m ρ c main_arg7 (by decide)).trans (W7_arg7 m ρ c)
theorem W8_arg8 : W8 (F := Ideal) m ρ c dr(main_arg8) = (m ((c.tc : Thread nD τ).loc main_arg8)) :=
  (W8_of_ne m ρ c main_arg8 (by decide)).trans (W7_arg8 m ρ c)

/-! ### At layer 3's entry -/

theorem W9_v57 : W9 (F := Ideal) m ρ c dr(main_v57) = f2 m c :=
  (ops3_keep (W8 m ρ c) main_v57 (by decide)).trans (W8_v57 m ρ c)
theorem W9_v69 : W9 (F := Ideal) m ρ c dr(main_v69) = agg (m ((c.tc : Thread nD τ).loc main_arg1)) (f2 m c) :=
  (ops3_agg (W8 m ρ c) (m ((c.tc : Thread nD τ).loc main_arg1)) (W8_v1 m ρ c) (W8_v3 m ρ c) (W8_v15 m ρ c)).trans
    (congrArg (agg (m ((c.tc : Thread nD τ).loc main_arg1))) (W8_v57 m ρ c))
theorem W9_v71 : W9 (F := Ideal) m ρ c dr(main_v71) = wl2 (m ((c.tc : Thread nD τ).loc main_arg4)) :=
  (ops3_wl (W8 m ρ c)).trans (congrArg wl2 (W8_arg4 m ρ c))
theorem W9_v73 : W9 (F := Ideal) m ρ c dr(main_v73) = wr2 (m ((c.tc : Thread nD τ).loc main_arg6)) :=
  (ops3_wr (W8 m ρ c)).trans (congrArg wr2 (W8_arg6 m ρ c))
theorem W9_v76 : W9 (F := Ideal) m ρ c dr(main_v76) = shapeCast S1x64 (bl2 (m ((c.tc : Thread nD τ).loc main_arg5))) shapeCasts_S64_S1x64 :=
  (ops3_brow (W8 m ρ c)).trans (congrArg (fun b => shapeCast S1x64 (bl2 b) shapeCasts_S64_S1x64) (W8_arg5 m ρ c))
theorem W9_arg7 : W9 (F := Ideal) m ρ c dr(main_arg7) = (m ((c.tc : Thread nD τ).loc main_arg7)) :=
  (ops3_keep (W8 m ρ c) main_arg7 (by decide)).trans (W8_arg7 m ρ c)
theorem W9_arg8 : W9 (F := Ideal) m ρ c dr(main_arg8) = (m ((c.tc : Thread nD τ).loc main_arg8)) :=
  (ops3_keep (W8 m ρ c) main_arg8 (by decide)).trans (W8_arg8 m ρ c)

/-! ### At layer 3's exit -/

set_option maxHeartbeats 1000000 in
theorem W10_v77 : W10 (F := Ideal) m ρ c dr(main_v77) = f3 m c :=
  calc W10 (F := Ideal) m ρ c dr(main_v77)
      = (dat3 (V9 m ρ) c).arrAt 5 cfg3.N := W10_arr m ρ c 5
    _ = Cert.Sage.layerR (V9 m ρ c (Pipeline.arrRef spec3 0)) (V9 m ρ c (Pipeline.arrRef spec3 1)) (V9 m ρ c (Pipeline.arrRef spec3 2))
          (V9 m ρ c (Pipeline.arrRef spec3 3)) (V9 m ρ c (Pipeline.arrRef spec3 4)) :=
        Arrays.layer3_array (V9 m ρ) c
    _ = Cert.Sage.layerR (agg (m ((c.tc : Thread nD τ).loc main_arg1)) (f2 m c)) (f2 m c) (wl2 (m ((c.tc : Thread nD τ).loc main_arg4))) (wr2 (m ((c.tc : Thread nD τ).loc main_arg6))) (shapeCast S1x64 (bl2 (m ((c.tc : Thread nD τ).loc main_arg5))) shapeCasts_S64_S1x64) := by
        have e0 : V9 (F := Ideal) m ρ c (Pipeline.arrRef spec3 0) = agg (m ((c.tc : Thread nD τ).loc main_arg1)) (f2 m c) := W9_v69 m ρ c
        have e1 : V9 (F := Ideal) m ρ c (Pipeline.arrRef spec3 1) = f2 m c := W9_v57 m ρ c
        have e2 : V9 (F := Ideal) m ρ c (Pipeline.arrRef spec3 2) = wl2 (m ((c.tc : Thread nD τ).loc main_arg4)) := W9_v71 m ρ c
        have e3 : V9 (F := Ideal) m ρ c (Pipeline.arrRef spec3 3) = wr2 (m ((c.tc : Thread nD τ).loc main_arg6)) := W9_v73 m ρ c
        have e4 : V9 (F := Ideal) m ρ c (Pipeline.arrRef spec3 4) = shapeCast S1x64 (bl2 (m ((c.tc : Thread nD τ).loc main_arg5))) shapeCasts_S64_S1x64 := W9_v76 m ρ c
        rw [e0, e1, e2, e3, e4]
    _ = f3 m c := Cert.Sage.layerR_eq_layer _ _ _ _ _ _ (fun q => shapeCast_a_1a_apply _ _ 0 q)
theorem W10_arg7 : W10 (F := Ideal) m ρ c dr(main_arg7) = (m ((c.tc : Thread nD τ).loc main_arg7)) :=
  (W10_of_ne m ρ c main_arg7 (by decide)).trans (W9_arg7 m ρ c)
theorem W10_arg8 : W10 (F := Ideal) m ρ c dr(main_arg8) = (m ((c.tc : Thread nD τ).loc main_arg8)) :=
  (W10_of_ne m ρ c main_arg8 (by decide)).trans (W9_arg8 m ρ c)

/-! ### At the classifier's entry and exit, and at the return -/

theorem W11_v77 : W11 (F := Ideal) m ρ c dr(main_v77) = f3 m c :=
  (ops4_keep (W10 m ρ c) main_v77 (by decide)).trans (W10_v77 m ρ c)
theorem W11_arg7 : W11 (F := Ideal) m ρ c dr(main_arg7) = (m ((c.tc : Thread nD τ).loc main_arg7)) :=
  (ops4_keep (W10 m ρ c) main_arg7 (by decide)).trans (W10_arg7 m ρ c)
theorem W11_v78 : W11 (F := Ideal) m ρ c dr(main_v78) = shapeCast S1x1 (m ((c.tc : Thread nD τ).loc main_arg8)) shapeCasts_S1_S1x1 :=
  (ops4_v78 (W10 m ρ c)).trans (congrArg (fun b => shapeCast S1x1 b shapeCasts_S1_S1x1) (W10_arg8 m ρ c))

set_option maxHeartbeats 1000000 in
theorem W12_v79 : W12 (F := Ideal) m ρ c dr(main_v79) = Cert.Sage.cls (f3 m c) (m ((c.tc : Thread nD τ).loc main_arg7)) (m ((c.tc : Thread nD τ).loc main_arg8)) :=
  calc W12 (F := Ideal) m ρ c dr(main_v79)
      = (dat4 (V11 m ρ) c).arrAt 3 cfg4.N := W12_arr m ρ c 3
    _ = Cert.Sage.clsR (V11 m ρ c (Pipeline.arrRef spec4 0)) (V11 m ρ c (Pipeline.arrRef spec4 1)) (V11 m ρ c (Pipeline.arrRef spec4 2)) :=
        Arrays.cls_array (V11 m ρ) c
    _ = Cert.Sage.clsR (f3 m c) (m ((c.tc : Thread nD τ).loc main_arg7)) (shapeCast S1x1 (m ((c.tc : Thread nD τ).loc main_arg8)) shapeCasts_S1_S1x1) := by
        have e0 : V11 (F := Ideal) m ρ c (Pipeline.arrRef spec4 0) = f3 m c := W11_v77 m ρ c
        have e1 : V11 (F := Ideal) m ρ c (Pipeline.arrRef spec4 1) = (m ((c.tc : Thread nD τ).loc main_arg7)) := W11_arg7 m ρ c
        have e2 : V11 (F := Ideal) m ρ c (Pipeline.arrRef spec4 2) = shapeCast S1x1 (m ((c.tc : Thread nD τ).loc main_arg8)) shapeCasts_S1_S1x1 := W11_v78 m ρ c
        rw [e0, e1, e2]
    _ = Cert.Sage.cls (f3 m c) (m ((c.tc : Thread nD τ).loc main_arg7)) (m ((c.tc : Thread nD τ).loc main_arg8)) :=
        Cert.Sage.clsR_eq_cls _ _ _ _ (shapeCast_a_1a_apply _ _ 0 0)

theorem W13_v80 : W13 (F := Ideal) m ρ c dr(main_v80)
    = shapeCast S100000 (Cert.Sage.cls (f3 m c) (m ((c.tc : Thread nD τ).loc main_arg7)) (m ((c.tc : Thread nD τ).loc main_arg8))) shapeCasts_S100000x1_S100000 :=
  (ops5_v80 (W12 m ρ c)).trans (congrArg (fun y => shapeCast S100000 y shapeCasts_S100000x1_S100000) (W12_v79 m ρ c))

end Run

/-! ## The result -/

/-- The result buffer at the return holds the network applied to the argument arrays, as a vector. -/
theorem value (m : (ℓ : Loc nD τ sig) → Buf (Elt Ideal) ℓ) (ρ : Dev nD → PrngReg) (c : Dev nD) :
    W13 (F := Ideal) m ρ c (Proc.devRef .tc main_v80)
      = shapeCast S100000
          (Cert.Sage.net (agg (m ((c.tc : Thread nD τ).loc main_arg1))) (m ((c.tc : Thread nD τ).loc main_arg0)) (m ((c.tc : Thread nD τ).loc main_arg2)) (m ((c.tc : Thread nD τ).loc main_arg3))
            (wl0 (m ((c.tc : Thread nD τ).loc main_arg4))) (wr0 (m ((c.tc : Thread nD τ).loc main_arg6))) (bl0 (m ((c.tc : Thread nD τ).loc main_arg5)))
            (wl1 (m ((c.tc : Thread nD τ).loc main_arg4))) (wr1 (m ((c.tc : Thread nD τ).loc main_arg6))) (bl1 (m ((c.tc : Thread nD τ).loc main_arg5)))
            (wl2 (m ((c.tc : Thread nD τ).loc main_arg4))) (wr2 (m ((c.tc : Thread nD τ).loc main_arg6))) (bl2 (m ((c.tc : Thread nD τ).loc main_arg5)))
            (m ((c.tc : Thread nD τ).loc main_arg7)) (m ((c.tc : Thread nD τ).loc main_arg8)))
          shapeCasts_S100000x1_S100000 :=
  (W13_v80 m ρ c).trans rfl

end Cert.KernelIdeal.KValue

end
-- ==== Proof.RefValue.lean ====
/-
  The reference program's result as the network of the specification.

  The reference is one straight-line program of whole-array operations. Its pieces between the dense stages are
  named here as functions of the argument arrays, in the program's own operations: the two rows of the edge list
  (source and destination node of every edge), the in-degree of every node and its inverse (zero where the degree
  is zero), the aggregation of the current rows (gather the rows at the edges' sources, add them up at the edges'
  destinations, scale every row by the inverse in-degree), and the three slices of each stacked weight array.
  Its dense operations are the specification's stages entry by entry: a product of rows and columns is the sum
  over the contracted index, a bias broadcast down the rows reads the bias entry of the column, the maximum with
  the zero array is the maximum with the zero literal, and one over one plus the exponential of the negated
  argument is the logistic function. Composing the stages from the encoder outwards gives the whole network.
-/
import proofs.«122353_j15796889715042_1_alg».proof.Proof.RefRead
import proofs.«122353_j15796889715042_1_alg».proof.Proof.Spec
import proofs.«122353_j15796889715042_1_alg».proof.Proof.LibRank2
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

variable [Cert.ReferenceIdeal.Facts]

/-! ## The pieces between the dense stages -/

/-- The source node of every edge: the first row of the edge list, as a vector. -/
def src (e : IVec S2x1600000 32) : IVec S1600000 32 :=
  shapeCast S1600000 (extractStridedSlice S1x1600000 ![0, 0] e slices_S2x1600000_S1x1600000_0_0)
    shapeCasts_S1x1600000_S1600000

/-- The destination node of every edge: the second row of the edge list, as a vector. -/
def dst (e : IVec S2x1600000 32) : IVec S1600000 32 :=
  shapeCast S1600000 (extractStridedSlice S1x1600000 ![1, 0] e slices_S2x1600000_S1x1600000_1_0)
    shapeCasts_S1x1600000_S1600000

/-- The in-degree of every node: a one added, from zero, at the destination of every edge. -/
def deg (e : IVec S2x1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (dst e))
    (broadcastInDim S1600000 ![] bcast_S_S1600000 (constant (F := Ideal) S_ .f32 0x3F800000#32))

/-- The inverse in-degree as a column: where the degree is positive, one over the larger of the degree and one;
    zero elsewhere. -/
def invDeg (e : IVec S2x1600000 32) : FVec Ideal S100000x1 .f32 :=
  broadcastInDim S100000x1 ![0] bcast_S100000_S100000x1_0
    (select
      (cmpf (F := Ideal) .ogt (deg e)
        (broadcastInDim S100000 ![] bcast_S_S100000 (constant (F := Ideal) S_ .f32 0x00000000#32)))
      (Host.divf (F := Ideal)
        (broadcastInDim S100000 ![] bcast_S_S100000 (constant (F := Ideal) S_ .f32 0x3F800000#32))
        (maximumf (F := Ideal) (deg e)
          (broadcastInDim S100000 ![] bcast_S_S100000 (constant (F := Ideal) S_ .f32 0x3F800000#32))))
      (broadcastInDim S100000 ![] bcast_S_S100000 (id (constant (F := Ideal) S_ .f32 0x00000000#32))))

/-- The aggregation of the rows `h`: the rows at the edges' sources (a negative source index counted from the end),
    added up from zero at the edges' destinations, every row then scaled by the inverse in-degree of its node. -/
def agg (e : IVec S2x1600000 32) (h : Cert.Sage.H) : Cert.Sage.H :=
  mulf (F := Ideal)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (dst e))
      (Host.gather gather_S100000x64_S1600000x1_S1600000x64_1_0_n_n_0_1_164 h
        (broadcastInDim S1600000x1 ![0] bcast_S1600000_S1600000x1_0
          (select
            (cmpi .slt (src e) (broadcastInDim S1600000 ![] bcast_S_S1600000 (constantI S_ 32 0#32)))
            (addi (src e) (broadcastInDim S1600000 ![] bcast_S_S1600000 (constantI S_ 32 100000#32)))
            (src e)))))
    (broadcastInDim S100000x64 ![0, 1] bcast_S100000x1_S100000x64_0_1 (invDeg e))

/-- The three slices of the stacked neighbour weights. -/
def wl0 (w : FVec Ideal S3x64x64 .f32) : FVec Ideal S64x64 .f32 :=
  shapeCast S64x64 (extractStridedSlice S1x64x64 ![0, 0, 0] w slices_S3x64x64_S1x64x64_0_0_0) shapeCasts_S1x64x64_S64x64
def wl1 (w : FVec Ideal S3x64x64 .f32) : FVec Ideal S64x64 .f32 :=
  shapeCast S64x64 (extractStridedSlice S1x64x64 ![1, 0, 0] w slices_S3x64x64_S1x64x64_1_0_0) shapeCasts_S1x64x64_S64x64
def wl2 (w : FVec Ideal S3x64x64 .f32) : FVec Ideal S64x64 .f32 :=
  shapeCast S64x64 (extractStridedSlice S1x64x64 ![2, 0, 0] w slices_S3x64x64_S1x64x64_2_0_0) shapeCasts_S1x64x64_S64x64

/-- The three slices of the stacked self weights. -/
def wr0 (w : FVec Ideal S3x64x64 .f32) : FVec Ideal S64x64 .f32 :=
  shapeCast S64x64 (extractStridedSlice S1x64x64 ![0, 0, 0] w slices_S3x64x64_S1x64x64_0_0_0) shapeCasts_S1x64x64_S64x64
def wr1 (w : FVec Ideal S3x64x64 .f32) : FVec Ideal S64x64 .f32 :=
  shapeCast S64x64 (extractStridedSlice S1x64x64 ![1, 0, 0] w slices_S3x64x64_S1x64x64_1_0_0) shapeCasts_S1x64x64_S64x64
def wr2 (w : FVec Ideal S3x64x64 .f32) : FVec Ideal S64x64 .f32 :=
  shapeCast S64x64 (extractStridedSlice S1x64x64 ![2, 0, 0] w slices_S3x64x64_S1x64x64_2_0_0) shapeCasts_S1x64x64_S64x64

/-- The three rows of the stacked layer biases, each as a vector. -/
def bl0 (b : FVec Ideal S3x64 .f32) : FVec Ideal S64 .f32 :=
  shapeCast S64 (extractStridedSlice S1x64 ![0, 0] b slices_S3x64_S1x64_0_0) shapeCasts_S1x64_S64
def bl1 (b : FVec Ideal S3x64 .f32) : FVec Ideal S64 .f32 :=
  shapeCast S64 (extractStridedSlice S1x64 ![1, 0] b slices_S3x64_S1x64_1_0) shapeCasts_S1x64_S64
def bl2 (b : FVec Ideal S3x64 .f32) : FVec Ideal S64 .f32 :=
  shapeCast S64 (extractStridedSlice S1x64 ![2, 0] b slices_S3x64_S1x64_2_0) shapeCasts_S1x64_S64

/-! ## The dense operations are the specification's stages -/

/-- The encoder's product at an entry: the sum over the 512 input features. -/
theorem dot_enc_apply (x : FVec Ideal S100000x512 .f32) (W : FVec Ideal S512x64 .f32) (p : Fin 100000) (q : Fin 64) :
    Host.dotGeneral (F := Ideal) dot_S100000x512_S512x64_S100000x64_1_0_0_1_n_n none x W (ix2 p q)
      = ∑ k : Fin 512, x (ix2 p k) * W (ix2 k q) :=
  Cert.Rank2.dotGeneral_plain_apply dot_S100000x512_S512x64_S100000x64_1_0_0_1_n_n_wf none x W p q

/-- A layer's product at an entry: the sum over the 64 hidden features. -/
theorem dot_layer_apply (a : Cert.Sage.H) (W : FVec Ideal S64x64 .f32) (p : Fin 100000) (q : Fin 64) :
    Host.dotGeneral (F := Ideal) dot_S100000x64_S64x64_S100000x64_1_0_0_1_n_n none a W (ix2 p q)
      = ∑ k : Fin 64, a (ix2 p k) * W (ix2 k q) :=
  Cert.Rank2.dotGeneral_plain_apply dot_S100000x64_S64x64_S100000x64_1_0_0_1_n_n_wf none a W p q

/-- The classifier's product at an entry: the sum over the 64 hidden features. -/
theorem dot_cls_apply (h : Cert.Sage.H) (W : FVec Ideal S64x1 .f32) (p : Fin 100000) (u : Fin 1) :
    Host.dotGeneral (F := Ideal) dot_S100000x64_S64x1_S100000x1_1_0_0_1_n_n none h W (ix2 p u)
      = ∑ k : Fin 64, h (ix2 p k) * W (ix2 k u) :=
  Cert.Rank2.dotGeneral_plain_apply dot_S100000x64_S64x1_S100000x1_1_0_0_1_n_n_wf none h W p u

/-- The encoder: the product plus the bias broadcast down the rows. -/
theorem enc_eq (x : FVec Ideal S100000x512 .f32) (W : FVec Ideal S512x64 .f32) (b : FVec Ideal S64 .f32) :
    addf (F := Ideal) (Host.dotGeneral (F := Ideal) dot_S100000x512_S512x64_S100000x64_1_0_0_1_n_n none x W)
        (broadcastInDim S100000x64 ![0, 1] bcast_S1x64_S100000x64_0_1 (broadcastInDim S1x64 ![1] bcast_S64_S1x64_1 b))
      = Cert.Sage.enc x W b := by
  funext i
  obtain ⟨p, q, rfl⟩ : ∃ (p : Fin 100000) (q : Fin 64), i = ix2 p q := ⟨i 0, i 1, eq_ix2 i⟩
  exact congrArg₂ (fun s t : EReal => s + t) (dot_enc_apply x W p q)
    (Cert.Rank2.rowBias_apply b bcast_S64_S1x64_1 bcast_S1x64_S100000x64_0_1 p q)

/-- One layer: the rows, plus the aggregated rows times the neighbour weights plus the bias plus the rows times the
    self weights, the whole bounded below by the zero literal. -/
theorem layer_eq (a h : Cert.Sage.H) (Wl Wr : FVec Ideal S64x64 .f32) (bl : FVec Ideal S64 .f32) :
    maximumf (F := Ideal)
        (addf (F := Ideal) h
          (addf (F := Ideal)
            (addf (F := Ideal) (Host.dotGeneral (F := Ideal) dot_S100000x64_S64x64_S100000x64_1_0_0_1_n_n none a Wl)
              (broadcastInDim S100000x64 ![0, 1] bcast_S1x64_S100000x64_0_1
                (broadcastInDim S1x64 ![1] bcast_S64_S1x64_1 bl)))
            (Host.dotGeneral (F := Ideal) dot_S100000x64_S64x64_S100000x64_1_0_0_1_n_n none h Wr)))
        (broadcastInDim S100000x64 ![] bcast_S_S100000x64 (constant (F := Ideal) S_ .f32 0x00000000#32))
      = Cert.Sage.layer a h Wl Wr bl := by
  funext i
  obtain ⟨p, q, rfl⟩ : ∃ (p : Fin 100000) (q : Fin 64), i = ix2 p q := ⟨i 0, i 1, eq_ix2 i⟩
  exact congrArg (fun t : EReal => max ((h (ix2 p q) : EReal) + t) (Ideal.ofBits .f32 0x00000000#32))
    (congrArg₂ (fun s t : EReal => s + t)
      (congrArg₂ (fun s t : EReal => s + t) (dot_layer_apply a Wl p q)
        (Cert.Rank2.rowBias_apply bl bcast_S64_S1x64_1 bcast_S1x64_S100000x64_0_1 p q))
      (dot_layer_apply h Wr p q))

/-- The literal one of the logistic expression, broadcast to a column, reads the number one. -/
theorem ones_apply (i : S100000x1.Idx) :
    broadcastInDim S100000x1 ![] bcast_S_S100000x1 (constant (F := Ideal) S_ .f32 0x3F800000#32) i = (1 : EReal) :=
  Ideal.ofBits_one_f32

/-- The classifier: one over one plus the exponential of minus (the product plus the bias) is the logistic function
    of the product plus the bias. -/
theorem cls_eq (h : Cert.Sage.H) (W : FVec Ideal S64x1 .f32) (b : FVec Ideal S1 .f32) :
    Host.divf (F := Ideal) (broadcastInDim S100000x1 ![] bcast_S_S100000x1 (constant (F := Ideal) S_ .f32 0x3F800000#32))
        (addf (F := Ideal) (broadcastInDim S100000x1 ![] bcast_S_S100000x1 (constant (F := Ideal) S_ .f32 0x3F800000#32))
          (Host.exp (F := Ideal) (Host.negf (F := Ideal)
            (addf (F := Ideal) (Host.dotGeneral (F := Ideal) dot_S100000x64_S64x1_S100000x1_1_0_0_1_n_n none h W)
              (broadcastInDim S100000x1 ![0, 1] bcast_S1x1_S100000x1_0_1
                (broadcastInDim S1x1 ![1] bcast_S1_S1x1_1 b))))))
      = Cert.Sage.cls h W b := by
  funext i
  obtain ⟨p, u, rfl⟩ : ∃ (p : Fin 100000) (u : Fin 1), i = ix2 p u := ⟨i 0, i 1, eq_ix2 i⟩
  obtain rfl : u = (0 : Fin 1) := Subsingleton.elim u 0
  exact congrArg₂ (fun o z : EReal => Ideal.div o (o + Ideal.exp (-z))) (ones_apply (ix2 p (0 : Fin 1)))
    (congrArg₂ (fun s t : EReal => s + t) (dot_cls_apply h W p (0 : Fin 1))
      (Cert.Rank2.rowBias_apply b bcast_S1_S1x1_1 bcast_S1x1_S100000x1_0_1 p (0 : Fin 1)))

/-! ## The program's stages, from the encoder outwards -/

section stages

variable (x0 : FVec Ideal S100000x512 .f32) (x1 : IVec S2x1600000 32) (x2 : FVec Ideal S512x64 .f32)
  (x3 : FVec Ideal S64 .f32) (x4 : FVec Ideal S3x64x64 .f32) (x5 : FVec Ideal S3x64 .f32)
  (x6 : FVec Ideal S3x64x64 .f32) (x7 : FVec Ideal S64x1 .f32) (x8 : FVec Ideal S1 .f32)

/-- The rows after the encoder. -/
theorem v3_eq : val_main_v3 (F := Ideal) x0 x2 x3 = Cert.Sage.enc x0 x2 x3 := by
  unfold val_main_v3 val_main_v2 val_main_v1 val_main_v0
  exact enc_eq x0 x2 x3

/-- The first aggregation is the aggregation of the encoder's rows. -/
theorem v31_eq : val_main_v31 (F := Ideal) x0 x1 x2 x3 = agg x1 (val_main_v3 (F := Ideal) x0 x2 x3) := rfl

/-- The rows after the first layer. -/
theorem v45_eq : val_main_v45 (F := Ideal) x0 x1 x2 x3 x4 x5 x6
    = Cert.Sage.layer (agg x1 (val_main_v3 (F := Ideal) x0 x2 x3)) (val_main_v3 (F := Ideal) x0 x2 x3)
        (wl0 x4) (wr0 x6) (bl0 x5) := by
  unfold val_main_v45 val_main_v44 val_main_v43 val_main_v42 val_main_v39 val_main_v38 val_main_v37 val_main_v34
    val_main_call1_v0 val_main_call1_cst
  rw [v31_eq x0 x1 x2 x3]
  exact layer_eq (agg x1 (val_main_v3 (F := Ideal) x0 x2 x3)) (val_main_v3 (F := Ideal) x0 x2 x3) (wl0 x4) (wr0 x6) (bl0 x5)

/-- The second aggregation is the aggregation of the first layer's rows. -/
theorem v57_eq : val_main_v57 (F := Ideal) x0 x1 x2 x3 x4 x5 x6
    = agg x1 (val_main_v45 (F := Ideal) x0 x1 x2 x3 x4 x5 x6) := rfl

/-- The rows after the second layer. -/
theorem v71_eq : val_main_v71 (F := Ideal) x0 x1 x2 x3 x4 x5 x6
    = Cert.Sage.layer (agg x1 (val_main_v45 (F := Ideal) x0 x1 x2 x3 x4 x5 x6))
        (val_main_v45 (F := Ideal) x0 x1 x2 x3 x4 x5 x6) (wl1 x4) (wr1 x6) (bl1 x5) := by
  unfold val_main_v71 val_main_v70 val_main_v69 val_main_v68 val_main_v65 val_main_v64 val_main_v63 val_main_v60
    val_main_call2_v0 val_main_call2_cst
  rw [v57_eq x0 x1 x2 x3 x4 x5 x6]
  exact layer_eq (agg x1 (val_main_v45 (F := Ideal) x0 x1 x2 x3 x4 x5 x6))
    (val_main_v45 (F := Ideal) x0 x1 x2 x3 x4 x5 x6) (wl1 x4) (wr1 x6) (bl1 x5)

/-- The third aggregation is the aggregation of the second layer's rows. -/
theorem v83_eq : val_main_v83 (F := Ideal) x0 x1 x2 x3 x4 x5 x6
    = agg x1 (val_main_v71 (F := Ideal) x0 x1 x2 x3 x4 x5 x6) := rfl

/-- The rows after the third layer. -/
theorem v97_eq : val_main_v97 (F := Ideal) x0 x1 x2 x3 x4 x5 x6
    = Cert.Sage.layer (agg x1 (val_main_v71 (F := Ideal) x0 x1 x2 x3 x4 x5 x6))
        (val_main_v71 (F := Ideal) x0 x1 x2 x3 x4 x5 x6) (wl2 x4) (wr2 x6) (bl2 x5) := by
  unfold val_main_v97 val_main_v96 val_main_v95 val_main_v94 val_main_v91 val_main_v90 val_main_v89 val_main_v86
    val_main_call3_v0 val_main_call3_cst
  rw [v83_eq x0 x1 x2 x3 x4 x5 x6]
  exact layer_eq (agg x1 (val_main_v71 (F := Ideal) x0 x1 x2 x3 x4 x5 x6))
    (val_main_v71 (F := Ideal) x0 x1 x2 x3 x4 x5 x6) (wl2 x4) (wr2 x6) (bl2 x5)

/-- The column of class probabilities. -/
theorem v107_eq : val_main_v107 (F := Ideal) x0 x1 x2 x3 x4 x5 x6 x7 x8
    = Cert.Sage.cls (val_main_v97 (F := Ideal) x0 x1 x2 x3 x4 x5 x6) x7 x8 := by
  unfold val_main_v107 val_main_v106 val_main_v105 val_main_v104 val_main_v103 val_main_v102 val_main_v101
    val_main_v100 val_main_v99 val_main_v98 val_main_cst_13 val_main_cst_14
  exact cls_eq (val_main_v97 (F := Ideal) x0 x1 x2 x3 x4 x5 x6) x7 x8

/-- The program's last stage: the network's column of probabilities, as a vector. -/
theorem v108_eq : val_main_v108 (F := Ideal) x0 x1 x2 x3 x4 x5 x6 x7 x8
    = shapeCast S100000
        (Cert.Sage.net (agg x1) x0 x2 x3 (wl0 x4) (wr0 x6) (bl0 x5) (wl1 x4) (wr1 x6) (bl1 x5) (wl2 x4) (wr2 x6) (bl2 x5)
          x7 x8)
        shapeCasts_S100000x1_S100000 := by
  unfold val_main_v108
  rw [v107_eq x0 x1 x2 x3 x4 x5 x6 x7 x8, v97_eq x0 x1 x2 x3 x4 x5 x6, v71_eq x0 x1 x2 x3 x4 x5 x6,
    v45_eq x0 x1 x2 x3 x4 x5 x6, v3_eq x0 x2 x3]
  rfl

end stages

/-! ## The result -/

/-- The reference's result buffer holds the network of the specification over the program's own aggregation and
    weight slices, its column of probabilities read as a vector. -/
theorem result_eq (m : (ℓ : Loc nD τ sig) → Buf (Elt Ideal) ℓ) (c : Dev nD) :
    Cert.ReferenceIdeal.Value.res_main_v108 m c
      = shapeCast S100000
          (Cert.Sage.net (agg (m ((c.tc : Thread nD τ).loc main_arg1)))
            (m ((c.tc : Thread nD τ).loc main_arg0)) (m ((c.tc : Thread nD τ).loc main_arg2))
            (m ((c.tc : Thread nD τ).loc main_arg3))
            (wl0 (m ((c.tc : Thread nD τ).loc main_arg4))) (wr0 (m ((c.tc : Thread nD τ).loc main_arg6)))
            (bl0 (m ((c.tc : Thread nD τ).loc main_arg5)))
            (wl1 (m ((c.tc : Thread nD τ).loc main_arg4))) (wr1 (m ((c.tc : Thread nD τ).loc main_arg6)))
            (bl1 (m ((c.tc : Thread nD τ).loc main_arg5)))
            (wl2 (m ((c.tc : Thread nD τ).loc main_arg4))) (wr2 (m ((c.tc : Thread nD τ).loc main_arg6)))
            (bl2 (m ((c.tc : Thread nD τ).loc main_arg5)))
            (m ((c.tc : Thread nD τ).loc main_arg7)) (m ((c.tc : Thread nD τ).loc main_arg8)))
          shapeCasts_S100000x1_S100000 :=
  (val_main_v108_eq (F := Ideal) m c).trans
    (v108_eq (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)))

end Cert.ReferenceIdeal.RefValue

end
-- ==== Proof.Bridge.lean ====
/-
  The two programs compute the network with the same pieces between the dense stages.

  Each program gathers the current rows at the edges' sources, adds them up at the edges' destinations, scales by
  the inverse in-degree, and slices the stacked weights, with the same operations in the same order over arrays of the
  same shapes; only the names under which each program lists its shapes and dimension records differ.  So the
  aggregation, the weight slices and the final reading of the probability column as a vector are the same functions,
  and the network over them is the same function of the argument arrays.
-/
import proofs.«122353_j15796889715042_1_alg».proof.Proof.KernelValue
import proofs.«122353_j15796889715042_1_alg».proof.Proof.RefValue

noncomputable section

namespace Cert.Bridge

open Idealize.ShloMosaic

theorem agg_eq : Cert.ReferenceIdeal.RefValue.agg = Cert.KernelIdeal.KValue.agg := rfl
theorem wl0_eq : Cert.ReferenceIdeal.RefValue.wl0 = Cert.KernelIdeal.KValue.wl0 := rfl
theorem wl1_eq : Cert.ReferenceIdeal.RefValue.wl1 = Cert.KernelIdeal.KValue.wl1 := rfl
theorem wl2_eq : Cert.ReferenceIdeal.RefValue.wl2 = Cert.KernelIdeal.KValue.wl2 := rfl
theorem wr0_eq : Cert.ReferenceIdeal.RefValue.wr0 = Cert.KernelIdeal.KValue.wr0 := rfl
theorem wr1_eq : Cert.ReferenceIdeal.RefValue.wr1 = Cert.KernelIdeal.KValue.wr1 := rfl
theorem wr2_eq : Cert.ReferenceIdeal.RefValue.wr2 = Cert.KernelIdeal.KValue.wr2 := rfl
theorem bl0_eq : Cert.ReferenceIdeal.RefValue.bl0 = Cert.KernelIdeal.KValue.bl0 := rfl
theorem bl1_eq : Cert.ReferenceIdeal.RefValue.bl1 = Cert.KernelIdeal.KValue.bl1 := rfl
theorem bl2_eq : Cert.ReferenceIdeal.RefValue.bl2 = Cert.KernelIdeal.KValue.bl2 := rfl

/-- The reference's reading of its result is the kernel program's, as functions of the nine argument arrays. -/
theorem out_eq (x0 : FVec Ideal Cert.KernelIdeal.S100000x512 .f32) (x1 : IVec Cert.KernelIdeal.S2x1600000 32)
    (x2 : FVec Ideal Cert.KernelIdeal.S512x64 .f32) (x3 : FVec Ideal Cert.KernelIdeal.S64 .f32)
    (x4 : FVec Ideal Cert.KernelIdeal.S3x64x64 .f32) (x5 : FVec Ideal Cert.KernelIdeal.S3x64 .f32)
    (x6 : FVec Ideal Cert.KernelIdeal.S3x64x64 .f32) (x7 : FVec Ideal Cert.KernelIdeal.S64x1 .f32)
    (x8 : FVec Ideal Cert.KernelIdeal.S1 .f32) :
    shapeCast Cert.ReferenceIdeal.S100000
        (Cert.Sage.net (Cert.ReferenceIdeal.RefValue.agg x1) x0 x2 x3
          (Cert.ReferenceIdeal.RefValue.wl0 x4) (Cert.ReferenceIdeal.RefValue.wr0 x6) (Cert.ReferenceIdeal.RefValue.bl0 x5)
          (Cert.ReferenceIdeal.RefValue.wl1 x4) (Cert.ReferenceIdeal.RefValue.wr1 x6) (Cert.ReferenceIdeal.RefValue.bl1 x5)
          (Cert.ReferenceIdeal.RefValue.wl2 x4) (Cert.ReferenceIdeal.RefValue.wr2 x6) (Cert.ReferenceIdeal.RefValue.bl2 x5)
          x7 x8)
        Cert.ReferenceIdeal.Gen.shapeCasts_S100000x1_S100000
      = shapeCast Cert.KernelIdeal.S100000
        (Cert.Sage.net (Cert.KernelIdeal.KValue.agg x1) x0 x2 x3
          (Cert.KernelIdeal.KValue.wl0 x4) (Cert.KernelIdeal.KValue.wr0 x6) (Cert.KernelIdeal.KValue.bl0 x5)
          (Cert.KernelIdeal.KValue.wl1 x4) (Cert.KernelIdeal.KValue.wr1 x6) (Cert.KernelIdeal.KValue.bl1 x5)
          (Cert.KernelIdeal.KValue.wl2 x4) (Cert.KernelIdeal.KValue.wr2 x6) (Cert.KernelIdeal.KValue.bl2 x5)
          x7 x8)
        Cert.KernelIdeal.Gen.shapeCasts_S100000x1_S100000 := by
  rw [agg_eq, wl0_eq, wl1_eq, wl2_eq, wr0_eq, wr1_eq, wr2_eq, bl0_eq, bl1_eq, bl2_eq]

end Cert.Bridge

end
-- ==== Proof.lean ====
/-
  The kernel program and its reference compute the same three-layer graph network.

  Both programs encode the node features (x W_enc + b_enc), then three times aggregate the current rows over the edges
  (gather at the sources, add up at the destinations, scale by the inverse in-degree) and apply the dense layer
  relu(h + (a Wl + bl + h Wr)), and finally apply the logistic function to h W_cls + b_cls.  The kernel program runs the
  five dense stages as five regions, each computing its stage in twenty blocks of 5000 rows; the reference computes
  them as whole-array products.  On the extended reals a rounding to a narrower format is the identity, a block of a
  product is the block of the plain contraction, and the blocks tile the rows, so each region leaves its stage of the
  arrays it found (Proof/EncArray, Layer1Array … ClsArray over Proof/Blocks); the buffers are followed through the
  program (Proof/KernelValue), the reference's term is read stage by stage (Proof/RefValue), both are the network of
  Proof/Spec over the same aggregation and weight slices (Proof/Bridge), and no finiteness of the inputs is used.
  The three programs' runs: the kernel programs' are the generated frames; the reference's is its run with the result
  dropped.  The idealized kernel rewrites no operation of the kernel, so nothing is owed for it.
-/
import proofs.«122353_j15796889715042_1_alg».proof.Defs
import proofs.«122353_j15796889715042_1_alg».proof.Proof.Gen.Kernel
import proofs.«122353_j15796889715042_1_alg».proof.Proof.Gen.Kernel.Skeleton
import proofs.«122353_j15796889715042_1_alg».proof.Proof.Gen.Kernel.Launch
import proofs.«122353_j15796889715042_1_alg».proof.Proof.Gen.Kernel.Points
import proofs.«122353_j15796889715042_1_alg».proof.Proof.Gen.Kernel.Frame
import proofs.«122353_j15796889715042_1_alg».proof.Proof.Gen.KernelIdeal
import proofs.«122353_j15796889715042_1_alg».proof.Proof.Gen.KernelIdeal.Skeleton
import proofs.«122353_j15796889715042_1_alg».proof.Proof.Gen.KernelIdeal.Launch
import proofs.«122353_j15796889715042_1_alg».proof.Proof.Gen.KernelIdeal.Points
import proofs.«122353_j15796889715042_1_alg».proof.Proof.Gen.KernelIdeal.Frame
import proofs.«122353_j15796889715042_1_alg».proof.Proof.Gen.ReferenceIdeal
import proofs.«122353_j15796889715042_1_alg».proof.Proof.Gen.Pre_finite_inputs
import proofs.«122353_j15796889715042_1_alg».proof.Proof.KernelRun
import proofs.«122353_j15796889715042_1_alg».proof.Proof.KernelValue
import proofs.«122353_j15796889715042_1_alg».proof.Proof.RefValue
import proofs.«122353_j15796889715042_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the nine argument arrays both programs end with the network of those arrays in their
    result buffers. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.KValue.value m ρ c), (h c).2⟩)
    (Cert.KernelIdeal.KValue.run_valued m ρ), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.RefValue.result_eq m' c, e0, e1, e2, e3, e4, e5, e6, e7, e8]
  exact Cert.Bridge.out_eq _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
